-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S262144x256 .f32) (main_arg1 : FVec F S256x256 .f32) (main_arg2 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S262144x256 : Shape := ⟨2, ![262144, 256]⟩
abbrev S256x256 : Shape := ⟨2, ![256, 256]⟩
abbrev S256 : Shape := ⟨1, ![256]⟩
abbrev S1x1 : Shape := ⟨2, ![1, 1]⟩
abbrev S8192x256 : Shape := ⟨2, ![8192, 256]⟩
abbrev S8192 : Shape := ⟨1, ![8192]⟩
abbrev S8192x1 : Shape := ⟨2, ![8192, 1]⟩
abbrev S1 : Shape := ⟨1, ![1]⟩
abbrev S_ : Shape := ⟨0, ![]⟩
abbrev S4096x256 : Shape := ⟨2, ![4096, 256]⟩
abbrev S1x256 : Shape := ⟨2, ![1, 256]⟩

abbrev nBuf : Space → Nat
  | .hbm => 19
  | .vmem => 11
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256x256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S1x1, .f32⟩
  | .hbm, ⟨18, _⟩ => ⟨S262144x256, .f32⟩
  | .local _ .vmem, ⟨0, _⟩ => ⟨S8192x256, .f32⟩
  | .local _ .vmem, ⟨1, _⟩ => ⟨S8192x256, .f32⟩
  | .local _ .vmem, ⟨2, _⟩ => ⟨S1x1, .f32⟩
  | .local _ .vmem, ⟨3, _⟩ => ⟨S4096x256, .f32⟩
  | .local _ .vmem, ⟨4, _⟩ => ⟨S4096x256, .f32⟩
  | .local _ .vmem, ⟨5, _⟩ => ⟨S256x256, .f32⟩
  | .local _ .vmem, ⟨6, _⟩ => ⟨S256, .f32⟩
  | .local _ .vmem, ⟨7, _⟩ => ⟨S1x1, .f32⟩
  | .local _ .vmem, ⟨8, _⟩ => ⟨S1x1, .f32⟩
  | .local _ .vmem, ⟨9, _⟩ => ⟨S4096x256, .f32⟩
  | .local _ .vmem, ⟨10, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1x1_S1x1_0_0 : ∀ a, (![0, 0] : Fin 2 → Nat) a + S1x1.size a ≤ S1x1.size a
  h_S1x1 : 0 < S1x1.numel
  inb_S8192x256_S8192x256_0_0 : ∀ a, (![0, 0] : Fin 2 → Nat) a + S8192x256.size a ≤ S8192x256.size a
  h_S8192x256 : 0 < S8192x256.numel
  reduces_S8192x256_S8192 : S8192x256.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1 : S1x1.ShapeCasts S1x1
  shapeCasts_S1x1_S_ : S1x1.ShapeCasts S_
  reducesTo_S256x256_S_d0_1 : S256x256.ReducesTo [0, 1] S_
  h_S_ : 0 < S_.numel
  shapeCasts_S_S1x1 : S_.ShapeCasts S1x1
  inpos_S1x1_p0_0 : ∀ a, (![0, 0] : Fin 2 → Nat) a < S1x1.size a
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  bitsLt_bf16_f32 : FTy.bits .bf16 < FTy.bits .f32
  shapeCasts_S256_S1x256 : S256.ShapeCasts S1x256
  broadcasts_S1x256_S4096x256 : S1x256.Broadcasts S4096x256
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S262144x256.size a
  hwx1_0 : ∀ i : grid1.Coords, EltTy.bits .f32 = 32 ∨ (Rect.block (s := S262144x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x256.size a ≤ S262144x256.size a
  hwx1_5 : ∀ i : grid1.Coords, EltTy.bits .f32 = 32 ∨ (Rect.block (s := S262144x256) S4096x256.size (cc1_transform_5 i) (hinb1_5 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S4096x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S262144x256 : Shape := ⟨2, ![262144, 256]⟩
abbrev S256x256 : Shape := ⟨2, ![256, 256]⟩
abbrev S256 : Shape := ⟨1, ![256]⟩
abbrev S_ : Shape := ⟨0, ![]⟩
abbrev S1x256 : Shape := ⟨2, ![1, 256]⟩

abbrev nBuf : Space → Nat
  | .hbm => 64
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S262144x256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S262144x256, .f32⟩
  | .hbm, ⟨31, _⟩ => ⟨S262144x256, .f32⟩
  | .hbm, ⟨32, _⟩ => ⟨S262144x256, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S262144x256, .f32⟩
  | .hbm, ⟨37, _⟩ => ⟨S262144x256, .f32⟩
  | .hbm, ⟨38, _⟩ => ⟨S_, .f32⟩
  | .hbm, ⟨39, _⟩ => ⟨S262144x256, .f32⟩
  | .hbm, ⟨40, _⟩ => ⟨S262144x256, .f32⟩
  | .hbm, ⟨41, _⟩ => ⟨S262144x256, .f32⟩
  | .hbm, ⟨42, _⟩ => ⟨S262144x256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S262144x256, .f32⟩
  | .hbm, ⟨58, _⟩ => ⟨S1x256, .f32⟩
  | .hbm, ⟨59, _⟩ => ⟨S262144x256, .f32⟩
  | .hbm, ⟨60, _⟩ => ⟨S262144x256, .f32⟩
  | .hbm, ⟨61, _⟩ => ⟨S_, .f32⟩
  | .hbm, ⟨62, _⟩ => ⟨S262144x256, .f32⟩
  | .hbm, ⟨63, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_cst_6 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_cst_8 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_9 : Ref sig .tc := ⟨.hbm, 47, rfl⟩
abbrev main_cst_10 : Ref sig .tc := ⟨.hbm, 48, rfl⟩
abbrev main_call5_v0 : Ref sig .tc := ⟨.hbm, 49, rfl⟩
abbrev main_call5_v1 : Ref sig .tc := ⟨.hbm, 50, rfl⟩
abbrev main_call5_v2 : Ref sig .tc := ⟨.hbm, 51, rfl⟩
abbrev main_call5_v3 : Ref sig .tc := ⟨.hbm, 52, rfl⟩
abbrev main_call5_v4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_11 : Ref sig .tc := ⟨.hbm, 61, rfl⟩
abbrev main_v31 : Ref sig .tc := ⟨.hbm, 62, rfl⟩
abbrev main_v32 : Ref sig .tc := ⟨.hbm, 63, rfl⟩

abbrev nD : Nat := 1
abbrev τ : Topo := Topo.v7x

variable {F : FTy → Type} [FloatOps F]

class Facts₀ : Prop where
  reducesTo_S256x256_S_d0_1 : S256x256.ReducesTo [0, 1] S_
  h_S_ : 0 < S_.numel
  bcast_S_S256x256 : S_.BroadcastsInDim S256x256 (![] : Fin 0 → Fin S256x256.rank)
  reducesTo_S262144x256_S_d0_1 : S262144x256.ReducesTo [0, 1] S_
  bcast_S_S262144x256 : S_.BroadcastsInDim S262144x256 (![] : Fin 0 → Fin S262144x256.rank)
  bcast_S_S256 : S_.BroadcastsInDim S256 (![] : Fin 0 → Fin S256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  dot_S262144x256_S256x256_S262144x256_1_1_0_0_n_n_wf : DotDims.WF S262144x256 S256x256 S262144x256 [1] [1] [0] [0] [] []

variable [Facts₀]

def dot_S262144x256_S256x256_S262144x256_1_1_0_0_n_n : DotDims S262144x256 S256x256 S262144x256 where
  lhsContracting := [1]
  rhsContracting := [1]
  lhsNonContracting := [0]
  rhsNonContracting := [0]
  lhsBatch := []
  rhsBatch := []
  wf := dot_S262144x256_S256x256_S262144x256_1_1_0_0_n_n_wf

class Facts : Prop extends Facts₀ where

variable [Facts]
-- ==== Proof.KernelRun.lean ====
import proofs.«119283_j33371895889922_2_alg».proof.Proof.Gen.KernelIdeal.Frame

/-!
  The idealized kernel's run, with the result array named.

  The program is two kernel launches with fourteen host operations between them. Its generated frame run ends in a
  state where every unscoped buffer holds the contents the last launch leaves (`Gen.W3`); the frame keeps of that only
  the three arguments. Here the same run is read once more at the result buffer as well: it ends holding
  `Gen.W3` at that buffer, which is the second launch's output array after all of its write-backs.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer holding what the last
    launch leaves there and the three arguments as launched. -/
theorem run_named : θ_run defs (onTc (τ := τ) (main (F := F))) ⟨m, fun _ => 0, ρ⟩ (fun r => ∀ c : Dev nD,
      r.2.mem ((c.tc : Thread nD τ).loc main_v10) = W3 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v10 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-- The result buffer's last contents are the second launch's output array after all of its write-backs. -/
theorem result_arr (c : Dev nD) :
    W3 m ρ c (Proc.devRef .tc main_v10) = (dat1 (V2 m ρ) c).arrAt 5 cfg1.N :=
  W3_arr m ρ c 5

end Cert.KernelIdeal.Run

end
-- ==== Proof.FakeQuant.lean ====
import Idealize.ShloMosaic.PureOps.Ideal
import Idealize.ShloMosaic.Lib.ValueIdx
import Mathlib.Data.Finset.Lattice.Fold

/-!
  The function both programs compute, on the extended reals.

  A tensor is quantised per tensor and symmetrically: its step is `max(a, 1e-8) / 127`, where `a` is the largest
  absolute value among its entries, and an entry `v` becomes `clip(round(v / step), lo, hi) · step` — rounding to the
  nearest integer, ties to even, the clip written `min(hi, max(lo, ·))`. The activations `x` (262144 × 256) use the
  full range [-128, 127], the weights `W` (256 × 256) the narrow range [-127, 127], and the bias `b` (256) the full
  range at the accumulator's step, the product of the two steps. The result at row `r`, column `q` is

      200 · ( Σ_k  x̂(r, k) · Ŵ(q, k)  +  b̂(q) ),

  the quantised weights contracted along their second axis.

  The steps are parameters of `layer`, so that each program's value can be stated with the steps as that program
  obtains them; `out` closes them at the largest absolute values of `x` and of `W`.
-/

noncomputable section

namespace Cert.FakeQuant

open Idealize.ShloMosaic Idealize.ShloMosaic.ValueIdx

/-- The largest absolute value among the entries of an array: the supremum of `max(v, -v)` over all its indices. -/
def absmax {s : Shape} (x : s.Idx → EReal) : EReal := Finset.univ.sup fun i => max (x i) (-(x i))

/-- The quantisation step of a tensor whose largest absolute value is `a`: `max(a, 1e-8) / 127`. -/
def step (a : EReal) : EReal :=
  Ideal.div (max a (Ideal.ofBits .f32 0x322BCC77#32)) (Ideal.ofBits .f32 0x42FE0000#32)

/-- One entry quantised at step `s` into the range whose ends are the f32 words `lo` and `hi`:
    `min(hi, max(lo, round(v / s))) · s`. -/
def fq (lo hi : BitVec 32) (s v : EReal) : EReal :=
  min (Ideal.ofBits .f32 hi) (max (Ideal.ofBits .f32 lo) (Ideal.liftRound Ideal.roundHalfEven (Ideal.div v s))) * s

/-- The layer at row `r`, column `q`, the activations quantised at step `sx`, the weights at `sw`, the bias at
    `sx · sw`: `200 · (Σ_k x̂(r, k) · Ŵ(q, k) + b̂(q))`. -/
def layer (sx sw : EReal) (x : (⟨2, ![262144, 256]⟩ : Shape).Idx → EReal) (W : (⟨2, ![256, 256]⟩ : Shape).Idx → EReal)
    (b : (⟨1, ![256]⟩ : Shape).Idx → EReal) (r : Fin 262144) (q : Fin 256) : EReal :=
  Ideal.ofBits .f32 0x43480000#32
    * ((∑ k : Fin 256, fq 0xC3000000#32 0x42FE0000#32 sx (x (ix2 r k)) * fq 0xC2FE0000#32 0x42FE0000#32 sw (W (ix2 q k)))
        + fq 0xC3000000#32 0x42FE0000#32 (sx * sw) (b (ix1 q)))

/-- The whole result array: the layer with each step taken from its tensor's largest absolute value. -/
def out (x : (⟨2, ![262144, 256]⟩ : Shape).Idx → EReal) (W : (⟨2, ![256, 256]⟩ : Shape).Idx → EReal)
    (b : (⟨1, ![256]⟩ : Shape).Idx → EReal) : (⟨2, ![262144, 256]⟩ : Shape).Idx → EReal :=
  fun i => layer (step (absmax x)) (step (absmax W)) x W b (i 0) (i 1)

end Cert.FakeQuant

end
-- ==== Proof.LibReduceAll.lean ====
/-
  REDUCTIONS OVER ALL AXES, AS SUPREMA AND INFIMA. A one-operand reduce whose result shape has a single
  index (every axis of the operand is reduced) combines, by its operation, the initial value with EVERY
  element of the operand. For a commutative and associative operation that is the fold of the operation
  over the whole index set (`reduce_all_eq_fold`). On the extended reals, with the operation `max` and
  initial value `⊥` it is the supremum of the operand over all its indices, and with `min` and `⊤` the
  infimum (`reduce_all_max`, `reduce_all_min`; the same with the ideal values' `maximumf` / `minimumf`,
  which are `max` / `min`: `reduce_all_maximumf`, `reduce_all_minimumf`; and at the rank-zero result
  shape, which has exactly one index: `reduce_scalar_max` … `reduce_scalar_minimumf`).
  A supremum or infimum over a whole finite index type does not change under a bijection of index types
  (`sup_univ_comp_equiv`, `inf_univ_comp_equiv`); a shape cast reads its operand through such a bijection
  (equal row-major positions), so it preserves the supremum and the infimum over all indices
  (`sup_univ_shapeCast`, `inf_univ_shapeCast`). Hence two reductions over all axes of arrays that differ
  by a shape cast have the same value.
-/
import Idealize.ShloMosaic.PureOps.Reduce
import Idealize.ShloMosaic.PureOps.Ideal
import Idealize.ShloMosaic.Lib.Pipeline.Value
import Idealize.ShloMosaic.Lib.ValueIdx
noncomputable section
namespace LibReduceAll
open Idealize.ShloMosaic

/-- A reduction over ALL axes (the result shape has a single index) by a commutative and associative
    operation is the fold of that operation, from the initial value's element, over EVERY index of the
    operand: each operand index drops to the one result index. -/
theorem reduce_all_eq_fold {α : Type} {s t u : Shape} {axes : List (Fin s.rank)} [Subsingleton t.Idx]
    (f : α → α → α) [Std.Commutative f] [Std.Associative f] (x : s.Idx → α) (init : u.Idx → α)
    (h : s.ReducesTo axes t) (hu : 0 < u.numel) (j : t.Idx) :
    Host.reduce f x init h hu j = Finset.univ.fold f (init (Shape.Idx.first hu)) x := by
  rw [Host.reduce_eq_fold, Finset.filter_true_of_mem fun i _ => Subsingleton.elim _ _]

/-- On the extended reals, the maximum over all axes from the initial value `⊥` is the supremum of the
    operand over all its indices. -/
theorem reduce_all_max {s t u : Shape} {axes : List (Fin s.rank)} [Subsingleton t.Idx]
    (x : s.Idx → EReal) (init : u.Idx → EReal) (h : s.ReducesTo axes t) (hu : 0 < u.numel) (j : t.Idx)
    (hinit : init (Shape.Idx.first hu) = ⊥) :
    Host.reduce (α := EReal) max x init h hu j = Finset.univ.sup x := by
  rw [reduce_all_eq_fold, hinit]
  rfl

/-- On the extended reals, the minimum over all axes from the initial value `⊤` is the infimum of the
    operand over all its indices. -/
theorem reduce_all_min {s t u : Shape} {axes : List (Fin s.rank)} [Subsingleton t.Idx]
    (x : s.Idx → EReal) (init : u.Idx → EReal) (h : s.ReducesTo axes t) (hu : 0 < u.numel) (j : t.Idx)
    (hinit : init (Shape.Idx.first hu) = ⊤) :
    Host.reduce (α := EReal) min x init h hu j = Finset.univ.inf x := by
  rw [reduce_all_eq_fold, hinit]
  rfl

/-- The same maximum, spelled with the ideal values' `maximumf` (which is `max` on the extended reals). -/
theorem reduce_all_maximumf {s t u : Shape} {axes : List (Fin s.rank)} [Subsingleton t.Idx]
    (x : s.Idx → EReal) (init : u.Idx → EReal) (h : s.ReducesTo axes t) (hu : 0 < u.numel) (j : t.Idx)
    (hinit : init (Shape.Idx.first hu) = ⊥) :
    Host.reduce (α := EReal) (FloatOps.maximumf (F := Ideal) (φ := .f32)) x init h hu j = Finset.univ.sup x :=
  reduce_all_max x init h hu j hinit

/-- The same minimum, spelled with the ideal values' `minimumf` (which is `min` on the extended reals). -/
theorem reduce_all_minimumf {s t u : Shape} {axes : List (Fin s.rank)} [Subsingleton t.Idx]
    (x : s.Idx → EReal) (init : u.Idx → EReal) (h : s.ReducesTo axes t) (hu : 0 < u.numel) (j : t.Idx)
    (hinit : init (Shape.Idx.first hu) = ⊤) :
    Host.reduce (α := EReal) (FloatOps.minimumf (F := Ideal) (φ := .f32)) x init h hu j = Finset.univ.inf x :=
  reduce_all_min x init h hu j hinit

/-- A supremum over a whole finite index type is unchanged by re-indexing along a bijection. -/
theorem sup_univ_comp_equiv {ι κ : Type} [Fintype ι] [Fintype κ] (e : ι ≃ κ) (f : κ → EReal) :
    Finset.univ.sup (fun i => f (e i)) = Finset.univ.sup f := by
  rw [Finset.sup_univ_eq_iSup, Finset.sup_univ_eq_iSup]
  exact e.iSup_comp (g := f)

/-- An infimum over a whole finite index type is unchanged by re-indexing along a bijection. -/
theorem inf_univ_comp_equiv {ι κ : Type} [Fintype ι] [Fintype κ] (e : ι ≃ κ) (f : κ → EReal) :
    Finset.univ.inf (fun i => f (e i)) = Finset.univ.inf f := by
  rw [Finset.inf_univ_eq_iInf, Finset.inf_univ_eq_iInf]
  exact e.iInf_comp (g := f)

/-- A shape cast reads the same elements through a bijection of the index types, so the supremum over
    all indices is the same before and after it. -/
theorem sup_univ_shapeCast {s t : Shape} (x : s.Idx → EReal) (h : s.ShapeCasts t) :
    Finset.univ.sup (shapeCast t x h) = Finset.univ.sup x :=
  sup_univ_comp_equiv (Shape.reshapeEquiv h) x

/-- Likewise the infimum over all indices is the same before and after a shape cast. -/
theorem inf_univ_shapeCast {s t : Shape} (x : s.Idx → EReal) (h : s.ShapeCasts t) :
    Finset.univ.inf (shapeCast t x h) = Finset.univ.inf x :=
  inf_univ_comp_equiv (Shape.reshapeEquiv h) x

/-- The rank-zero shape has exactly one index (the empty tuple of coordinates): any two agree. -/
theorem subsingleton_idx_rank_zero : Subsingleton (⟨0, ![]⟩ : Shape).Idx :=
  ⟨fun _ _ => funext fun d => d.elim0⟩

instance : Subsingleton (⟨0, ![]⟩ : Shape).Idx := subsingleton_idx_rank_zero

/-- So a reduction INTO the rank-zero shape is a reduction over all axes: the maximum is the supremum. -/
example {s u : Shape} {axes : List (Fin s.rank)} (x : s.Idx → EReal) (init : u.Idx → EReal)
    (h : s.ReducesTo axes ⟨0, ![]⟩) (hu : 0 < u.numel) (j : (⟨0, ![]⟩ : Shape).Idx)
    (hinit : init (Shape.Idx.first hu) = ⊥) :
    Host.reduce (α := EReal) (FloatOps.maximumf (F := Ideal) (φ := .f32)) x init h hu j = Finset.univ.sup x :=
  reduce_all_maximumf x init h hu j hinit

/-! The same four statements at the rank-zero result shape itself (it has exactly one index), stated without
    the one-index hypothesis. -/

/-- The maximum over all axes into the rank-zero shape, from `⊥`, is the supremum over all indices. -/
theorem reduce_scalar_max {s u : Shape} {axes : List (Fin s.rank)}
    (x : s.Idx → EReal) (init : u.Idx → EReal) (h : s.ReducesTo axes ⟨0, ![]⟩) (hu : 0 < u.numel)
    (j : (⟨0, ![]⟩ : Shape).Idx) (hinit : init (Shape.Idx.first hu) = ⊥) :
    Host.reduce (α := EReal) max x init h hu j = Finset.univ.sup x :=
  reduce_all_max x init h hu j hinit

/-- The minimum over all axes into the rank-zero shape, from `⊤`, is the infimum over all indices. -/
theorem reduce_scalar_min {s u : Shape} {axes : List (Fin s.rank)}
    (x : s.Idx → EReal) (init : u.Idx → EReal) (h : s.ReducesTo axes ⟨0, ![]⟩) (hu : 0 < u.numel)
    (j : (⟨0, ![]⟩ : Shape).Idx) (hinit : init (Shape.Idx.first hu) = ⊤) :
    Host.reduce (α := EReal) min x init h hu j = Finset.univ.inf x :=
  reduce_all_min x init h hu j hinit

/-- The same maximum spelled with the ideal values' `maximumf`. -/
theorem reduce_scalar_maximumf {s u : Shape} {axes : List (Fin s.rank)}
    (x : s.Idx → EReal) (init : u.Idx → EReal) (h : s.ReducesTo axes ⟨0, ![]⟩) (hu : 0 < u.numel)
    (j : (⟨0, ![]⟩ : Shape).Idx) (hinit : init (Shape.Idx.first hu) = ⊥) :
    Host.reduce (α := EReal) (FloatOps.maximumf (F := Ideal) (φ := .f32)) x init h hu j = Finset.univ.sup x :=
  reduce_all_max x init h hu j hinit

/-- The same minimum spelled with the ideal values' `minimumf`. -/
theorem reduce_scalar_minimumf {s u : Shape} {axes : List (Fin s.rank)}
    (x : s.Idx → EReal) (init : u.Idx → EReal) (h : s.ReducesTo axes ⟨0, ![]⟩) (hu : 0 < u.numel)
    (j : (⟨0, ![]⟩ : Shape).Idx) (hinit : init (Shape.Idx.first hu) = ⊤) :
    Host.reduce (α := EReal) (FloatOps.minimumf (F := Ideal) (φ := .f32)) x init h hu j = Finset.univ.inf x :=
  reduce_all_min x init h hu j hinit

end LibReduceAll
-- ==== Proof.LibCols.lean ====
/-
  Columns of a matrix read at an index, over the extended reals. The maximum down a matrix's columns, as a kernel takes
  it (a reduction over axis 0 folded from an accumulator word) and as a host reduction takes it (folded from an initial
  value), is at column `j` the fold of `max` over that column's entries. A column cut out of an array as a unit-width
  slice reads the array at that column, and four such columns joined side by side read, at (i, k), column k at row i.
  A vector laid out as one row and spread
  down the rows of a matrix reads, at (p, c), the vector's entry c. The float word for −∞ is the bottom element of the
  extended reals, so a fold of `max` that starts from it is the supremum.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Mathlib.Data.Finset.Lattice.Fold

noncomputable section

namespace Cert.LibCols

open Idealize.ShloMosaic Idealize.ShloMosaic.ValueIdx

variable {α : Type}

/-- An `[b]` vector laid out as the row `[1, b]` and spread down the rows of an `[a, b]` matrix reads, at `(p, c)`,
    its entry `c`. -/
theorem row_spread_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- Column `k` of an `[n, m]` array taken as a unit-width slice with the unit axis dropped reads, at `i`, the array at
    `(i, k)`. -/
theorem sliceCol_apply {n m : ℕ} (k : Fin m) (X : (⟨2, ![n, m]⟩ : Shape).Idx → α)
    (hs : (⟨2, ![n, m]⟩ : Shape).Slices ![0, k.val] ⟨2, ![n, 1]⟩)
    (hc : (⟨2, ![n, 1]⟩ : Shape).ShapeCasts ⟨1, ![n]⟩) (i : Fin n) :
    shapeCast ⟨1, ![n]⟩ (extractStridedSlice ⟨2, ![n, 1]⟩ ![0, k.val] X hs) hc (ix1 i) = X (ix2 i k) := by
  refine (shapeCast_apply _ hc (ix1 i) (ix2 i (0 : Fin 1)) ?_).trans ?_
  · rw [Shape.rowMajor_val_two, Shape.rowMajor_val_one]
    show i.val * 1 + 0 = i.val
    omega
  · exact extractStridedSlice_apply ![0, k.val] X hs (ix2 i (0 : Fin 1)) (ix2 i k) (fun a => match a with
      | ⟨0, _⟩ => by show i.val = 0 + i.val; omega
      | ⟨1, _⟩ => by show k.val = k.val + 0; omega)

/-- Four `[n, 1]` columns joined side by side read, at `(i, k)`, column `k` at row `i`. -/
theorem concat4_apply {n : ℕ} (c : Fin 4 → (⟨2, ![n, 1]⟩ : Shape).Idx → α)
    (h : Shape.Concatenates
      (([⟨⟨2, ![n, 1]⟩, c 0⟩, ⟨⟨2, ![n, 1]⟩, c 1⟩, ⟨⟨2, ![n, 1]⟩, c 2⟩, ⟨⟨2, ![n, 1]⟩, c 3⟩] :
        List ((s : Shape) × (s.Idx → α))).map (·.1)) ⟨2, ![n, 4]⟩ 1)
    (i : Fin n) (k : Fin 4) :
    concatenate ⟨2, ![n, 4]⟩ 1 [⟨⟨2, ![n, 1]⟩, c 0⟩, ⟨⟨2, ![n, 1]⟩, c 1⟩, ⟨⟨2, ![n, 1]⟩, c 2⟩, ⟨⟨2, ![n, 1]⟩, c 3⟩] h (ix2 i k)
      = c k (ix2 i (0 : Fin 1)) := by
  have hi : ∀ b : Fin (⟨2, ![n, 1]⟩ : Shape).rank, b.cast (rfl : (⟨2, ![n, 1]⟩ : Shape).rank = (⟨2, ![n, 4]⟩ : Shape).rank) ≠ 1 →
      ((ix2 i (0 : Fin 1) : (⟨2, ![n, 1]⟩ : Shape).Idx) b).val = ((ix2 i k : (⟨2, ![n, 4]⟩ : Shape).Idx) (b.cast rfl)).val := by
    intro b hb
    match b with
    | ⟨0, _⟩ => rfl
    | ⟨1, _⟩ => exact absurd rfl hb
  match k with
  | ⟨0, _⟩ => exact concatenate_apply_piece 1 _ h (ix2 i _) 0 (by show 0 < 4; omega) _ (c 0) rfl rfl 0 rfl (ix2 i 0) hi rfl
  | ⟨1, _⟩ => exact concatenate_apply_piece 1 _ h (ix2 i _) 1 (by show 1 < 4; omega) _ (c 1) rfl rfl 1 rfl (ix2 i 0) hi rfl
  | ⟨2, _⟩ => exact concatenate_apply_piece 1 _ h (ix2 i _) 2 (by show 2 < 4; omega) _ (c 2) rfl rfl 2 rfl (ix2 i 0) hi rfl
  | ⟨3, _⟩ => exact concatenate_apply_piece 1 _ h (ix2 i _) 3 (by show 3 < 4; omega) _ (c 3) rfl rfl 3 rfl (ix2 i 0) hi rfl

/-- Column `j` of a matrix with the row coordinate `k` put back is `(k, j)`. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- The maximum down a matrix's columns, folded from the accumulator's word: at column `j`, the fold of `max` over the
    column. -/
theorem colMax_apply {a b : ℕ} (X : FVec Ideal ⟨2, ![a, b]⟩ .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] ⟨1, ![b]⟩ X acc h hφ hacc (ix1 j)
      = (Finset.univ : Finset (Fin a)).fold max (Ideal.ofBits .f32 acc) (fun k => X (ix2 k j)) := by
  refine (Ideal.multiReduction_maximumf_single X acc h hφ hacc (ix1 j)).trans ?_
  have hf : (X ∘ h.lift (ix1 j)) = fun k : Fin a => X (ix2 k j) := funext fun k => congrArg X (lift_col h j k)
  exact congrArg (fun f => Finset.fold max (Ideal.ofBits .f32 acc) f (Finset.univ : Finset (Fin a))) hf

/-- A host reduction by `max` down a matrix's columns: at column `j`, the fold of `max` from the initial value over the
    column. -/
theorem hostColMax_apply {a b : ℕ} {u : Shape} (X : FVec Ideal ⟨2, ![a, b]⟩ .f32) (init : u.Idx → Ideal .f32)
    (h' : (⟨2, ![a, b]⟩ : Shape).ReducesTo [0] (⟨1, ![b]⟩ : Shape))
    (h : (⟨2, ![a, b]⟩ : Shape).Reduces [0] (⟨1, ![b]⟩ : Shape)) (hu : 0 < u.numel) (j : Fin b) :
    Host.reduce FloatOps.maximumf X init h' hu (ix1 j)
      = (Finset.univ : Finset (Fin a)).fold max (init (Shape.Idx.first hu)) (fun k => X (ix2 k j)) := by
  refine (Host.reduce_eq_fold_single FloatOps.maximumf X init h' h hu (ix1 j)).trans ?_
  have hf : (X ∘ h.lift (ix1 j)) = fun k : Fin a => X (ix2 k j) := funext fun k => congrArg X (lift_col h j k)
  exact congrArg (fun f => Finset.fold max (init (Shape.Idx.first hu)) f (Finset.univ : Finset (Fin a))) hf

/-- The f32 word of −∞ is the bottom element of the extended reals. -/
theorem ninf_eq_bot : Ideal.ofBits .f32 0xFF800000#32 = (⊥ : EReal) := by
  simp [Ideal.ofBits, Ideal.ieee]

/-- A fold of `max` that starts from −∞ is the supremum. -/
theorem fold_max_ninf {ι : Type*} (s : Finset ι) (f : ι → Ideal .f32) :
    s.fold max (Ideal.ofBits .f32 0xFF800000#32) f = s.sup f := by
  rw [ninf_eq_bot]; rfl

end Cert.LibCols

end
-- ==== Proof.HostScales.lean ====
import proofs.«119283_j33371895889922_2_alg».proof.Proof.Gen.KernelIdeal.Frame
import proofs.«119283_j33371895889922_2_alg».proof.Proof.FakeQuant
import proofs.«119283_j33371895889922_2_alg».proof.Proof.LibReduceAll
import proofs.«119283_j33371895889922_2_alg».proof.Proof.LibCols
import Idealize.ShloMosaic.Lib.StableHlo.Run
import Idealize.ShloMosaic.Lib.ValueIdx
import Idealize.ShloMosaic.Lib.Pipeline.Value

/-!
  What the second launch finds in its operands' arrays.

  Between the two launches the host takes the first launch's 1 × 1 result `a`, forms `max(a, 1e-8) / 127` and
  lays it out as a 1 × 1 array — the activations' step —, and does the same with the largest absolute value of the
  weights, which it computes itself as a maximum over both axes from −∞ — the weights' step. None of these
  operations writes an argument, and the first launch writes none either, so the second launch finds the three
  arguments as launched.
-/

set_option maxRecDepth 16384

noncomputable section

namespace Cert.KernelIdeal.Host

open Cert.KernelIdeal Cert.KernelIdeal.Gen
open Idealize.ShloMosaic Idealize.ShloMosaic.TcCoe Idealize.ShloMosaic.Tactic Idealize.ShloMosaic.StableHlo
open Idealize.ShloMosaic.ValueIdx
open Idealize.SL.Sem

variable (m : (ℓ : Loc nD τ sig) → Buf (Elt Ideal) ℓ) (ρ : Dev nD → PrngReg)

/-- A cast between two shapes of one element each reads that element. -/
theorem cast_one {s t : Shape} (x : s.Idx → EReal) (h : s.ShapeCasts t) (j : t.Idx) (k : s.Idx)
    (hs : s.numel = 1) : shapeCast t x h j = x k :=
  shapeCast_apply x h j k (by
    have h1 := (s.rowMajor k).isLt
    have h2 := (t.rowMajor j).isLt
    have ht : t.numel = 1 := h.trans hs
    omega)

/-- The host's maximum over both axes of the absolute values, from −∞, is the largest absolute value. -/
theorem reduce_absmax (X : FVec Ideal S256x256 .f32) :
    Host.reduce (FloatOps.maximumf (F := Ideal) (φ := .f32)) (Host.absf (F := Ideal) (φ := .f32) X)
        (constant (F := Ideal) S_ .f32 0xFF800000#32) reducesTo_S256x256_S_d0_1 h_S_ ix0
      = Cert.FakeQuant.absmax X :=
  LibReduceAll.reduce_scalar_maximumf (Host.absf (F := Ideal) (φ := .f32) X) (constant (F := Ideal) S_ .f32 0xFF800000#32)
    reducesTo_S256x256_S_d0_1 h_S_ ix0 Cert.LibCols.ninf_eq_bot

/-- The second launch finds the activations as launched. -/
theorem entry_x (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans
    (W3_main_arg0 m ρ c)

/-- The second launch finds the weights as launched. -/
theorem entry_w (c : Dev nD) : V2 m ρ c main_arg1 = m ((c : Thread nD τ).loc main_arg1) :=
  ((W3_arr m ρ c 1).trans (((dat1 (V2 m ρ) c).arrAt_in 1 rfl _).trans (A_eq1 (V2 m ρ) c 1))).symm.trans
    (W3_main_arg1 m ρ c)

/-- The second launch finds the biases as launched. -/
theorem entry_b (c : Dev nD) : V2 m ρ c main_arg2 = m ((c : Thread nD τ).loc main_arg2) :=
  ((W3_arr m ρ c 2).trans (((dat1 (V2 m ρ) c).arrAt_in 2 rfl _).trans (A_eq1 (V2 m ρ) c 2))).symm.trans
    (W3_main_arg2 m ρ c)

/-- The activations' step as the second launch finds it: `max(a, 1e-8) / 127` of the first launch's result `a`. -/
theorem entry_sx (c : Dev nD) :
    (V2 m ρ c main_v8 : S1x1.Idx → EReal) (ix2 (0 : Fin 1) (0 : Fin 1))
      = Cert.FakeQuant.step ((W1 m ρ c (Proc.devRef .tc main_v0) : S1x1.Idx → EReal) (ix2 (0 : Fin 1) (0 : Fin 1))) := by
  have e : (V2 m ρ c main_v8 : S1x1.Idx → EReal)
      = shapeCast S1x1 (Host.divf (maximumf
          (shapeCast S_ (W1 m ρ c (Proc.devRef .tc main_v0) : S1x1.Idx → EReal) shapeCasts_S1x1_S_)
          (constant (F := Ideal) S_ .f32 0x322BCC77#32)) (constant (F := Ideal) S_ .f32 0x42FE0000#32)) shapeCasts_S_S1x1 := by
    show StableHlo.after hostOps1 (W1 m ρ c) (Proc.devRef .tc main_v8) = _
    after_results; rfl
  rw [e, cast_one _ _ _ ix0 rfl]
  show Ideal.div (max (shapeCast S_ (W1 m ρ c (Proc.devRef .tc main_v0) : S1x1.Idx → EReal) shapeCasts_S1x1_S_ ix0) _) _ = _
  rw [cast_one _ _ ix0 (ix2 (0 : Fin 1) (0 : Fin 1)) rfl]
  rfl

/-- The weights' step as the second launch finds it: `max(a, 1e-8) / 127` of the weights' largest absolute value. -/
theorem entry_sw (c : Dev nD) :
    (V2 m ρ c main_v9 : S1x1.Idx → EReal) (ix2 (0 : Fin 1) (0 : Fin 1))
      = Cert.FakeQuant.step (Cert.FakeQuant.absmax (m ((c : Thread nD τ).loc main_arg1) : S256x256.Idx → EReal)) := by
  have e : (V2 m ρ c main_v9 : S1x1.Idx → EReal)
      = shapeCast S1x1 (Host.divf (maximumf
          (Host.reduce FloatOps.maximumf (Host.absf (W1 m ρ c (Proc.devRef .tc main_arg1) : S256x256.Idx → EReal))
            (constant (F := Ideal) S_ .f32 0xFF800000#32) reducesTo_S256x256_S_d0_1 h_S_)
          (constant (F := Ideal) S_ .f32 0x322BCC77#32)) (constant (F := Ideal) S_ .f32 0x42FE0000#32)) shapeCasts_S_S1x1 := by
    show StableHlo.after hostOps1 (W1 m ρ c) (Proc.devRef .tc main_v9) = _
    after_results; rfl
  have ew : (W1 m ρ c (Proc.devRef .tc main_arg1) : S256x256.Idx → EReal) = m ((c : Thread nD τ).loc main_arg1) :=
    W1_of_ne m ρ c main_arg1 (by decide)
  rw [e, cast_one _ _ _ ix0 rfl, ew]
  exact congrArg (fun a : EReal => Ideal.div (max a (Ideal.ofBits .f32 0x322BCC77#32)) (Ideal.ofBits .f32 0x42FE0000#32))
    (reduce_absmax (m ((c : Thread nD τ).loc main_arg1)))

end Cert.KernelIdeal.Host

end
-- ==== Proof.LibDenseT.lean ====
/-
  General lemmas for a matrix product whose right operand is stored transposed, over variable extents, at the
  extended reals.

  * `trans_sum`: for the dimension numbers "M×K by N×K" (contract the left operand's axis 1 with the right
    operand's axis 1, no batch axis), the sum over the contraction index of the operands' products at the result
    index (i, j) is `∑ k : Fin K, l (i, k) * r (j, k)`.
  * `matmul_zero_trans` / `dotGeneral_trans`: hence a vector-unit matrix product into a zero accumulator, and the
    host's `dot_general`, read at (i, j), are both that sum.
-/
import Idealize.ShloMosaic.Lib.ValueIdx
import Idealize.ShloMosaic.Lib.Pipeline.Value
import Idealize.ShloMosaic.PureOps.Ideal.Laws

noncomputable section

namespace Cert.LibDenseT

open Idealize.ShloMosaic Idealize.ShloMosaic.ValueIdx

/-- The dimension numbers `<[1], [1], [0], [0], [], []>` over any well-formedness witness: two records with these
    axis lists differ only in that witness, so every printed record of this kind is one of these by unfolding. -/
abbrev transOf {M K N : Nat}
    (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  { lhsContracting := [1], rhsContracting := [1], lhsNonContracting := [0], rhsNonContracting := [0],
    lhsBatch := [], rhsBatch := [], wf := wf }

variable {M K N : Nat} (wf : DotDims.WF (⟨2, ![M, K]⟩ : Shape) ⟨2, ![N, K]⟩ ⟨2, ![M, N]⟩ [1] [1] [0] [0] [] [])

/-- The left operand's row is the result's row. -/
theorem lhs_row (i : (⟨2, ![M, N]⟩ : Shape).Idx) (q : (transOf wf).contr.Idx) :
    ((transOf wf).lhsIdx i q 0).val = (i 0).val := by
  unfold DotDims.lhsIdx
  rw [dif_neg (show ¬(0 : Fin 2) ∈ (transOf wf).lhsBatch from List.not_mem_nil),
    dif_pos (show (0 : Fin 2) ∈ (transOf wf).lhsNonContracting from List.mem_singleton.mpr rfl)]
  rfl

/-- The right operand's row is the result's column. -/
theorem rhs_row (i : (⟨2, ![M, N]⟩ : Shape).Idx) (q : (transOf wf).contr.Idx) :
    ((transOf wf).rhsIdx i q 0).val = (i 1).val := by
  unfold DotDims.rhsIdx
  rw [dif_neg (show ¬(0 : Fin 2) ∈ (transOf wf).rhsBatch from List.not_mem_nil),
    dif_pos (show (0 : Fin 2) ∈ (transOf wf).rhsNonContracting from List.mem_singleton.mpr rfl)]
  rfl

/-- The contraction sum at (i, j), re-indexed by the one contracted coordinate. -/
theorem trans_sum (l : (⟨2, ![M, K]⟩ : Shape).Idx → EReal) (r : (⟨2, ![N, K]⟩ : Shape).Idx → EReal)
    (i : Fin M) (j : Fin N) :
    ∑ q : (transOf wf).contr.Idx, l ((transOf wf).lhsIdx (ix2 i j) q) * r ((transOf wf).rhsIdx (ix2 i j) q)
      = ∑ k : Fin K, l (ix2 i k) * r (ix2 j k) := by
  rw [← Equiv.sum_comp (contrEquiv1 (transOf wf) K rfl rfl).symm]
  refine Finset.sum_congr rfl fun k _ => ?_
  have hk := contrEquiv1_symm_val (transOf wf) K rfl rfl k
  have el : (transOf wf).lhsIdx (ix2 i j) ((contrEquiv1 (transOf wf) K rfl rfl).symm k) = ix2 i k :=
    funext fun a => Fin.ext (by
      match a with
      | ⟨0, _⟩ => exact lhs_row wf _ _
      | ⟨1, _⟩ => exact ((transOf wf).lhsIdx_val_of_single rfl _ _).trans hk)
  have er : (transOf wf).rhsIdx (ix2 i j) ((contrEquiv1 (transOf wf) K rfl rfl).symm k) = ix2 j k :=
    funext fun a => Fin.ext (by
      match a with
      | ⟨0, _⟩ => exact rhs_row wf _ _
      | ⟨1, _⟩ => exact ((transOf wf).rhsIdx_val_of_single rfl _ _).trans hk)
  rw [el, er]

/-- A matrix product on the vector unit into the zero accumulator, read at (i, j). -/
theorem matmul_zero_trans {φ₁ φ₂ : FTy} (prec : Option ContractPrecision)
    (l : FVec Ideal (⟨2, ![M, K]⟩ : Shape) φ₁) (r : FVec Ideal (⟨2, ![N, K]⟩ : Shape) φ₂) (i : Fin M) (j : Fin N) :
    FloatOps.matmul (transOf wf) prec l r (constant (⟨2, ![M, N]⟩ : Shape) .f32 0x00000000#32) (ix2 i j)
      = ∑ k : Fin K, l (ix2 i k) * r (ix2 j k) :=
  (Ideal.matmul_constant_zero_apply (transOf wf) prec l r (ix2 i j)).trans (trans_sum wf l r i j)

/-- The host's `dot_general` with the same dimension numbers, read at (i, j): the same sum. -/
theorem dotGeneral_trans {φ₁ φ₂ : FTy} (prec : Option ContractPrecision) (sched : HostSchedule)
    (l : FVec Ideal (⟨2, ![M, K]⟩ : Shape) φ₁) (r : FVec Ideal (⟨2, ![N, K]⟩ : Shape) φ₂) (i : Fin M) (j : Fin N) :
    FloatOps.dotGeneral (transOf wf) prec sched l r (ix2 i j) = ∑ k : Fin K, l (ix2 i k) * r (ix2 j k) :=
  (Ideal.dotGeneral_apply (transOf wf) prec sched l r (ix2 i j)).trans (trans_sum wf l r i j)

end Cert.LibDenseT

end
-- ==== Proof.QuantBody.lean ====
import proofs.«119283_j33371895889922_2_alg».proof.Proof.Gen.KernelIdeal.Skeleton
import proofs.«119283_j33371895889922_2_alg».proof.Proof.FakeQuant
import proofs.«119283_j33371895889922_2_alg».proof.Proof.LibDenseT
import proofs.«119283_j33371895889922_2_alg».proof.Proof.LibCols
import Idealize.ShloMosaic.Lib.ValueIdx
import Idealize.ShloMosaic.Lib.Pipeline.Value
import Idealize.ShloMosaic.PureOps.Ideal.Laws

/-!
  The second launch's body, read at one index of its output block.

  The body loads the two steps `sx`, `sw` (each the one entry of a 1 × 1 block), a 4096 × 256 block of activations,
  the whole 256 × 256 weight matrix and the 256 biases. It quantises all three (the bias at step `sx · sw`),
  multiplies the quantised activations by the quantised weights contracting the second axis of both, adds the
  quantised bias to every row, and multiplies by 200. At row `p`, column `q` of the block that is

      200 · ( Σ_k x̂(p, k) · Ŵ(q, k) + b̂(q) ),

  the product into a zero accumulator being the plain sum over the contracted index, and the changes of float format
  on the way into the product the identity on extended reals.
-/

noncomputable section

namespace Cert.KernelIdeal.Quant

open Cert.KernelIdeal Cert.KernelIdeal.Gen
open Idealize.ShloMosaic Idealize.ShloMosaic.ValueIdx
open Cert.FakeQuant (fq)

/-- One output entry from the steps, a row of activations, a row of weights and a bias. -/
def cell (sx sw : EReal) (xrow wrow : Fin 256 → EReal) (bias : EReal) : EReal :=
  Ideal.ofBits .f32 0x43480000#32
    * ((∑ k : Fin 256, fq 0xC3000000#32 0x42FE0000#32 sx (xrow k) * fq 0xC2FE0000#32 0x42FE0000#32 sw (wrow k))
        + fq 0xC3000000#32 0x42FE0000#32 (sx * sw) bias)

/-- The one entry of a 1 × 1 vector. -/
theorem extract_one {α : Type} (v : S1x1.Idx → α) (h : ∀ a, (![0, 0] : Fin 2 → Nat) a < S1x1.size a) :
    extractAt ![0, 0] v h = v (ix2 (0 : Fin 1) (0 : Fin 1)) :=
  congrArg v (funext fun a => Fin.ext (by match a with | ⟨0, _⟩ => rfl | ⟨1, _⟩ => rfl))

/-- The product into the zero accumulator at (p, q): the sum over the contracted index. -/
theorem product_apply (l : FVec Ideal S4096x256 .bf16) (r : FVec Ideal S256x256 .bf16) (p : Fin 4096) (q : Fin 256) :
    matmul dot_S4096x256_S256x256_S4096x256_1_1_0_0_n_n none l r (constant S4096x256 .f32 0x00000000#32) (ix2 p q)
      = ∑ k : Fin 256, l (ix2 p k) * r (ix2 q k) :=
  Cert.LibDenseT.matmul_zero_trans (M := 4096) (K := 256) (N := 256)
    dot_S4096x256_S256x256_S4096x256_1_1_0_0_n_n_wf none l r p q

/-- The body's stored value at (p, q) of its block. -/
theorem body_apply (v0 v2 : Vec Ideal S1x1 .f32) (v5 : Vec Ideal S4096x256 .f32) (v6 : Vec Ideal S256x256 .f32)
    (v7 : Vec Ideal S256 .f32) (p : Fin 4096) (q : Fin 256) :
    k1_pay1 (k1_pay2 v0 v2 v5 v6 v7) (k1_pay3 (F := Ideal)) (ix2 p q)
      = cell (v0 (ix2 (0 : Fin 1) (0 : Fin 1))) (v2 (ix2 (0 : Fin 1) (0 : Fin 1)))
          (fun k => v5 (ix2 p k)) (fun k => v6 (ix2 q k)) (v7 (ix1 q)) := by
  unfold k1_pay1 k1_pay3 k1_pay2
  dsimp only
  rw [extract_one v0, extract_one v2]
  exact congrArg₂ (fun a b : EReal => Ideal.ofBits .f32 0x43480000#32 * (a + b))
    (product_apply _ _ p q) (Cert.LibCols.row_spread_apply _ _ _ p q)

end Cert.KernelIdeal.Quant

end
-- ==== Proof.QuantRegion.lean ====
import proofs.«119283_j33371895889922_2_alg».proof.Proof.Gen.KernelIdeal.Frame
import proofs.«119283_j33371895889922_2_alg».proof.Proof.QuantBody
import Idealize.ShloMosaic.Lib.Pipeline.Value
import Idealize.ShloMosaic.Lib.ValueIdx

/-!
  The second launch's output array after all of its write-backs, as one function of what the launch finds.

  The grid has 64 points. At point `t` the activations' window and the output's window are both at row block `t`
  (rows `4096·t … 4096·t + 4095`, all 256 columns); the weights, the biases and the two steps are whole arrays, read at
  block zero at every point. So what point `t` writes back at (p, q) of its block is the layer's entry at row
  `4096·t + p`, column `q` of the whole arrays; every point writes back, and row `r` lies in the block of point
  `r / 4096`, so the blocks cover the array.
-/

set_option maxRecDepth 16384

noncomputable section

namespace Cert.KernelIdeal.Quant

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer over whole arrays as the launch finds them, the two steps read off their 1 × 1 arrays. -/
def whole (c : Dev nD) : S262144x256.Idx → EReal := fun i =>
  cell ((V c main_v8 : S1x1.Idx → EReal) (ix2 (0 : Fin 1) (0 : Fin 1))) ((V c main_v9 : S1x1.Idx → EReal) (ix2 (0 : Fin 1) (0 : Fin 1)))
    (fun k => (V c main_arg0 : S262144x256.Idx → EReal) (ix2 (i 0) k))
    (fun k => (V c main_arg1 : S256x256.Idx → EReal) (ix2 (i 1) k))
    ((V c main_arg2 : S256.Idx → EReal) (ix1 (i 1)))

/-- The printed index maps over the grid: the activations' and the output's windows sit at row block `t`, the other
    windows at block zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s row block is row `4096·t + p` of the array. -/
def row (t : Fin cfg1.N) (p : Fin 4096) : Fin 262144 :=
  ⟨4096 * t.val + p.val, by
    have ht : t.val < 64 := lt_of_lt_of_eq t.isLt (show cfg1.N = 64 from N_1)
    have := p.isLt; omega⟩

/-- The activations' block at point `t`, read at (p, k). -/
theorem blk_x (c : Dev nD) (t : Fin cfg1.N) (p : Fin 4096) (k : Fin 256) :
    (iblk1 V c 0 t : S4096x256.Idx → EReal) (ix2 p k) = (V c main_arg0 : S262144x256.Idx → EReal) (ix2 (row t p) k) := by
  unfold iblk1
  rw [View.read_apply]
  show V c main_arg0 (((cfg1.win 0).blk t).view.emb (ix2 p k)) = V c main_arg0 (ix2 (row t p) k)
  refine congrArg (V c main_arg0) (funext fun a => Fin.ext ?_)
  obtain ⟨e0, e1, -⟩ := idx_facts t
  match a with
  | ⟨0, _⟩ => show win1_0.index t (0 : Fin 2) * 4096 + 1 * p.val = 4096 * t.val + p.val; rw [e0]; omega
  | ⟨1, _⟩ => show win1_0.index t (1 : Fin 2) * 256 + 1 * k.val = k.val; rw [e1]; omega

/-- The weights' block at any point is the whole matrix. -/
theorem blk_w (c : Dev nD) (t : Fin cfg1.N) (q k : Fin 256) :
    (iblk1 V c 1 t : S256x256.Idx → EReal) (ix2 q k) = (V c main_arg1 : S256x256.Idx → EReal) (ix2 q k) := by
  unfold iblk1
  rw [View.read_apply]
  show V c main_arg1 (((cfg1.win 1).blk t).view.emb (ix2 q k)) = V c main_arg1 (ix2 q k)
  refine congrArg (V c main_arg1) (funext fun a => Fin.ext ?_)
  obtain ⟨-, -, e0, e1, -⟩ := idx_facts t
  match a with
  | ⟨0, _⟩ => show win1_1.index t (0 : Fin 2) * 256 + 1 * q.val = q.val; rw [e0]; omega
  | ⟨1, _⟩ => show win1_1.index t (1 : Fin 2) * 256 + 1 * k.val = k.val; rw [e1]; omega

/-- The biases' block at any point is the whole vector. -/
theorem blk_b (c : Dev nD) (t : Fin cfg1.N) (q : Fin 256) :
    (iblk1 V c 2 t : S256.Idx → EReal) (ix1 q) = (V c main_arg2 : S256.Idx → EReal) (ix1 q) := by
  unfold iblk1
  rw [View.read_apply]
  show V c main_arg2 (((cfg1.win 2).blk t).view.emb (ix1 q)) = V c main_arg2 (ix1 q)
  refine congrArg (V c main_arg2) (funext fun a => Fin.ext ?_)
  obtain ⟨-, -, -, -, e0, -⟩ := idx_facts t
  match a with
  | ⟨0, _⟩ => show win1_2.index t (0 : Fin 1) * 256 + 1 * q.val = q.val; rw [e0]; omega

/-- The activations' step's block at any point is its whole 1 × 1 array. -/
theorem blk_sx (c : Dev nD) (t : Fin cfg1.N) :
    (iblk1 V c 3 t : S1x1.Idx → EReal) (ix2 (0 : Fin 1) (0 : Fin 1)) = (V c main_v8 : S1x1.Idx → EReal) (ix2 (0 : Fin 1) (0 : Fin 1)) := by
  unfold iblk1
  rw [View.read_apply]
  show V c main_v8 (((cfg1.win 3).blk t).view.emb (ix2 (0 : Fin 1) (0 : Fin 1))) = V c main_v8 (ix2 (0 : Fin 1) (0 : Fin 1))
  refine congrArg (V c main_v8) (funext fun a => Fin.ext ?_)
  obtain ⟨-, -, -, -, -, e0, e1, -⟩ := idx_facts t
  match a with
  | ⟨0, _⟩ => show win1_3.index t (0 : Fin 2) * 1 + 1 * 0 = 0; rw [e0]
  | ⟨1, _⟩ => show win1_3.index t (1 : Fin 2) * 1 + 1 * 0 = 0; rw [e1]

/-- The weights' step's block at any point is its whole 1 × 1 array. -/
theorem blk_sw (c : Dev nD) (t : Fin cfg1.N) :
    (iblk1 V c 4 t : S1x1.Idx → EReal) (ix2 (0 : Fin 1) (0 : Fin 1)) = (V c main_v9 : S1x1.Idx → EReal) (ix2 (0 : Fin 1) (0 : Fin 1)) := by
  unfold iblk1
  rw [View.read_apply]
  show V c main_v9 (((cfg1.win 4).blk t).view.emb (ix2 (0 : Fin 1) (0 : Fin 1))) = V c main_v9 (ix2 (0 : Fin 1) (0 : Fin 1))
  refine congrArg (V c main_v9) (funext fun a => Fin.ext ?_)
  obtain ⟨-, -, -, -, -, -, -, e0, e1, -⟩ := idx_facts t
  match a with
  | ⟨0, _⟩ => show win1_4.index t (0 : Fin 2) * 1 + 1 * 0 = 0; rw [e0]
  | ⟨1, _⟩ => show win1_4.index t (1 : Fin 2) * 1 + 1 * 0 = 0; rw [e1]

/-- Entry (p, q) of the output's block at point `t` is entry (4096·t + p, q) of the array. -/
theorem blk_out (t : Fin cfg1.N) (p : Fin 4096) (q : Fin 256) :
    ((cfg1.win 5).blk t).view.emb (ix2 p q) = (ix2 (row t p) q : S262144x256.Idx) := by
  refine funext fun a => Fin.ext ?_
  obtain ⟨-, -, -, -, -, -, -, -, -, e0, e1⟩ := idx_facts t
  match a with
  | ⟨0, _⟩ => show win1_5.index t (0 : Fin 2) * 4096 + 1 * p.val = 4096 * t.val + p.val; rw [e0]; omega
  | ⟨1, _⟩ => show win1_5.index t (1 : Fin 2) * 256 + 1 * q.val = q.val; rw [e1]; omega

/-- What point `t` writes back is block `t` of the layer over the whole arrays. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz2]
  simp only [View.ld_unit_zero (S := S4096x256) hz2, View.ld_unit_zero (S := S256x256) hz2,
    View.ld_unit_zero (S := S1x1) hz2, View.ld_unit_zero (S := S256) hz1]
  funext j
  obtain ⟨p, q, rfl⟩ : ∃ (p : Fin 4096) (q : Fin 256), j = ix2 p q := ⟨j 0, j 1, eq_ix2 j⟩
  rw [View.read_apply, blk_out t p q]
  refine (body_apply (iblk1 V c 3 t) (iblk1 V c 4 t) (iblk1 V c 0 t) (iblk1 V c 1 t) (iblk1 V c 2 t) p q).trans ?_
  rw [blk_sx V c t, blk_sw V c t, blk_b V c t q]
  simp only [blk_x V c t p, blk_w V c t q]
  rfl

/-- An index of the array is in point `t`'s block iff each coordinate is in the block's range on its axis. -/
theorem mem_blk (t : Fin cfg1.N) (i : S262144x256.Idx) :
    i ∈ ((cfg1.win 5).blk t).view.set
      ↔ ∀ a : Fin 2, win1_5.index t a * S4096x256.size a ≤ (i a).val ∧ (i a).val < win1_5.index t a * S4096x256.size a + S4096x256.size a := by
  show i ∈ ((View.whole main_v10).slice (win1_5.rect t)).set ↔ _
  rw [View.set_slice_whole, Rect.mem_set_unit]
  exact Iff.rfl

/-- Row `r` lies in the block of point `r / 4096`, and every point writes its block back. -/
theorem cover (i : S262144x256.Idx) :
    ∃ t : Fin cfg1.N, (cfg1.win 5).flush t = true ∧ i ∈ ((cfg1.win 5).blk t).view.set := by
  have hi0 : (i 0).val < 262144 := (i 0).isLt
  have hi1 : (i 1).val < 256 := (i 1).isLt
  have hN : cfg1.N = 64 := N_1
  refine ⟨⟨(i 0).val / 4096, by rw [hN]; omega⟩, flush1_5 _, ?_⟩
  rw [mem_blk]
  obtain ⟨-, -, -, -, -, -, -, -, -, e0, e1⟩ := idx_facts ⟨(i 0).val / 4096, by rw [hN]; omega⟩
  intro a
  match a with
  | ⟨0, _⟩ =>
    show win1_5.index _ (0 : Fin 2) * 4096 ≤ (i 0).val ∧ (i 0).val < win1_5.index _ (0 : Fin 2) * 4096 + 4096
    rw [e0]; dsimp only; omega
  | ⟨1, _⟩ =>
    show win1_5.index _ (1 : Fin 2) * 256 ≤ (i 1).val ∧ (i 1).val < win1_5.index _ (1 : Fin 2) * 256 + 256
    rw [e1]; omega

/-- The output array after the launch is the layer over the whole arrays as the launch found them. -/
theorem final (c : Dev nD) : (dat1 V c).arrAt 5 cfg1.N = whole V c :=
  (dat1 V c).arrAt_eq_of_cover 5 (whole V c) (fun t _ => flushed_eq V c t) (cover)

end Cert.KernelIdeal.Quant

end
-- ==== Proof.AbsMaxCases.lean ====
/-
  The two ways one grid point changes the running maximum. At the first point the kernel stores the zero block, reads
  it back and stores the larger of it and the block's maximum of absolute values; at every later point it reads what the
  point before left and stores the larger of that and the block's maximum. Either way the output block ends holding the
  body's one maximum, taken over the input block and the value the output block held when it was read.
-/
import proofs.«119283_j33371895889922_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.AbsMax

open Cert.KernelIdeal Cert.KernelIdeal.Gen

variable {F : FTy → Type} [FloatOps F]

/-- The origin of a rank-two array, as the constant function. -/
theorem hz : (![0, 0] : Fin 2 → Nat) = fun _ => 0 := funext fun a => by fin_cases a <;> rfl

/-- A later point: the output block held `xo`, the input block is `x`; the body leaves the maximum of `xo` and the
    largest absolute value in `x`. -/
theorem out_B (c : Dev nD) (i : grid0.Coords) (a1 : Memref sig .tc .vmem S8192x256 .f32) (h1 : a1.IsWhole)
    (a2 : Memref sig .tc .vmem S1x1 .f32) (h2 : a2.IsWhole) (hc : ¬cond0_0 i) (x : Vec F S8192x256 .f32)
    (xo : Vec F S1x1 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero hz]
  simp only [View.readAt_eq_ld, h1.read_unread, h2.read_unread, View.ld_unit_zero (S := S8192x256) hz,
    View.ld_unit_zero (S := S1x1) hz]

/-- The first point: the body stores the zero block, reads it back, and leaves the maximum of it and the largest
    absolute value in the input block `x`. -/
theorem out_A (c : Dev nD) (i : grid0.Coords) (a1 : Memref sig .tc .vmem S8192x256 .f32) (h1 : a1.IsWhole)
    (a2 : Memref sig .tc .vmem S1x1 .f32) (h2 : a2.IsWhole) (hc : cond0_0 i) (x : Vec F S8192x256 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S8192x256) hz]

end Cert.KernelIdeal.AbsMax

end
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.AbsMaxPayload.lean ====
/-
  The value of the body's one maximum, over the extended reals. The body takes the absolute value of every entry of its
  block, the maximum along each row from −∞, lays those out as a column, takes the maximum down that column from −∞, and
  joins the result with the value it read from the output block. From −∞ a fold of `max` is the supremum, so the
  block's contribution is the supremum of |x(r, l)| over all its rows r and lanes l.
-/
import proofs.«119283_j33371895889922_2_alg».proof.Proof.Gen.KernelIdeal.Skeleton
import proofs.«119283_j33371895889922_2_alg».proof.Proof.LibRows
import proofs.«119283_j33371895889922_2_alg».proof.Proof.LibCols

noncomputable section

open Idealize.ShloMosaic Idealize.ShloMosaic.ValueIdx

namespace Cert.KernelIdeal.AbsMax

open Cert.KernelIdeal Cert.KernelIdeal.Gen

/-- The absolute value of an extended real, as the larger of it and its negation. -/
abbrev av (v : EReal) : EReal := max v (-v)

/-- The largest absolute value among the entries of one block: row by row, lane by lane. -/
def blockAbsMax (x : Vec Ideal S8192x256 .f32) : EReal :=
  (Finset.univ : Finset (Fin 8192)).sup fun r => (Finset.univ : Finset (Fin 256)).sup fun l => av (x (ix2 r l))

/-- The body's maximum at the output block's one entry: the larger of the value read there and the block's largest
    absolute value. -/
theorem pay2_apply (x : Vec Ideal S8192x256 .f32) (v : Vec Ideal S1x1 .f32) (y : S1x1.Idx) :
    (k0_pay2 (F := Ideal) x v : S1x1.Idx → EReal) y = max (v y) (blockAbsMax x) := by
  obtain ⟨a, b, rfl⟩ : ∃ (a b : Fin 1), y = ix2 a b := ⟨y 0, y 1, eq_ix2 y⟩
  unfold k0_pay2
  dsimp only
  refine (maximumf_apply _ _ _).trans ?_
  rw [Idealize.ShloMosaic.shapeCast_self]
  refine congrArg (max (v (ix2 a b))) ?_
  refine (LibRows.shapeCast_a_a1_apply _ shapeCasts_S1_S1x1 a b).trans ?_
  refine (LibCols.colMax_apply _ 0xFF800000#32 reduces_S8192x1_S1 (.inl rfl) rfl a).trans ?_
  rw [LibCols.fold_max_ninf]
  unfold blockAbsMax
  refine Finset.sup_congr rfl fun r _ => ?_
  refine (LibRows.shapeCast_a_a1_apply _ shapeCasts_S8192_S8192x1 r a).trans ?_
  refine (LibRows.rowMax_apply _ 0xFF800000#32 reduces_S8192x256_S8192 (.inl rfl) rfl r).trans ?_
  rw [LibCols.fold_max_ninf]
  rfl

/-- The zero block the first point stores reads zero. -/
theorem pay1_apply (y : S1x1.Idx) : (k0_pay1 (F := Ideal) : S1x1.Idx → EReal) y = 0 := by
  unfold k0_pay1
  exact Ideal.ofBits_zero_f32

end Cert.KernelIdeal.AbsMax

end
-- ==== Proof.AbsMaxBlock.lean ====
/-
  Which entries of the array a grid point's block holds. The array has 262144 rows of 256 lanes and is cut into 32
  blocks of 8192 rows; the block at point t starts at row 8192·t and lane 0, so its entry (r, l) is the array's entry
  (8192·t + r, l).
-/
import proofs.«119283_j33371895889922_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.AbsMax

open Cert.KernelIdeal Cert.KernelIdeal.Gen

variable {F : FTy → Type} [FloatOps F]
variable (V : (c : Dev nD) → (b : Ref sig .tc) → Buf (Elt F) ((c : Thread nD τ).loc b))

/-- The block index of the input at point t is (t, 0): decided over the 32 points. -/
theorem index0 : ∀ t : Fin cfg0.N, win0_0.index t 0 = t.val ∧ win0_0.index t 1 = 0 :=
  (by decide +kernel : ∀ t : Fin grid0.N, win0_0.index t 0 = t.val ∧ win0_0.index t 1 = 0)

/-- The grid has 32 points. -/
theorem lt32 (t : Fin cfg0.N) : t.val < 32 := lt_of_lt_of_eq t.isLt (show cfg0.N = 32 from N_0)

/-- Row r of block n is a row of the array. -/
theorem row_lt {n : ℕ} (hn : n < cfg0.N) (r : Fin 8192) : 8192 * n + r.val < 262144 := by
  have h : n < 32 := lt_of_lt_of_eq hn (show cfg0.N = 32 from N_0)
  have := r.isLt
  omega

/-- The input block at point t, read at (r, l), is the array at (8192·t + r, l). -/
theorem iblk_apply (c : Dev nD) (t : Fin cfg0.N) (r : Fin 8192) (l : Fin 256) :
    (iblk0 V c 0 t : Vec F S8192x256 .f32) (ix2 r l)
      = (V c main_arg0 : Vec F S262144x256 .f32) (ix2 (⟨8192 * t.val + r.val, row_lt t.isLt r⟩ : Fin 262144) l) := by
  have hi := index0 t
  unfold iblk0
  rw [View.read_apply]
  show V c main_arg0 _ = V c main_arg0 _
  congr 1
  funext a
  apply Fin.ext
  match a with
  | ⟨0, _⟩ => show win0_0.index t 0 * 8192 + 1 * r.val = 8192 * t.val + r.val; rw [hi.1]; omega
  | ⟨1, _⟩ => show win0_0.index t 1 * 256 + 1 * l.val = l.val; rw [hi.2]; omega

end Cert.KernelIdeal.AbsMax

end
-- ==== Proof.LibMaxFold.lean ====
/-
  The order law that joins the two programs. One side takes the maximum of a family over all of its indices at
  once, from the bottom element; the other walks the indices block by block, taking each block's maximum and
  folding it into a running maximum that starts at the bottom element. Both are the supremum of the family: the
  supremum over the indices below `B·(n+1)` is the supremum over those below `B·n` joined with the supremum over
  block `n`. Only the semilattice laws and `⊥ ⊔ x = x` are used, so nothing here asks an entry to be finite.
-/
import Mathlib.Data.Finset.Lattice.Fold
import Mathlib.Data.Fintype.Basic
import Mathlib.Data.EReal.Basic

namespace Cert.MaxFold

variable {α : Type*} [SemilatticeSup α] [OrderBot α]

/-- The indices below `b`. -/
abbrev below (N b : ℕ) : Finset (Fin N) := Finset.univ.filter fun i : Fin N => i.val < b

/-- No index lies below `B·0`: the supremum over them is the bottom element. -/
theorem sup_below_zero {N : ℕ} (B : ℕ) (f : Fin N → α) : (below N (B * 0)).sup f = ⊥ := by
  have : below N (B * 0) = ∅ := by
    apply Finset.filter_eq_empty_iff.2
    intro i _ h
    simp at h
  rw [this, Finset.sup_empty]

/-- Every index lies below a bound that is at least `N`: the supremum over them is the supremum over all. -/
theorem sup_below_all {N b : ℕ} (h : N ≤ b) (f : Fin N → α) : (below N b).sup f = Finset.univ.sup f := by
  have : below N b = Finset.univ := by
    apply Finset.filter_eq_self.2
    intro i _
    exact lt_of_lt_of_le i.isLt h
  rw [this]

/-- Block `n` of a family cut into blocks of `B`: entry `r` is the family at `B·n + r`. -/
def block {N : ℕ} (B n : ℕ) (hn : B * (n + 1) ≤ N) (f : Fin N → α) (r : Fin B) : α :=
  f ⟨B * n + r.val, by have := r.isLt; rw [Nat.mul_succ] at hn; omega⟩

/-- One more block: the supremum over the indices below `B·(n+1)` is the supremum over those below `B·n`, joined
    with the supremum over block `n` (the indices `B·n + r`, `r < B`). -/
theorem sup_below_succ {N : ℕ} (B n : ℕ) (hn : B * (n + 1) ≤ N) (f : Fin N → α) :
    (below N (B * (n + 1))).sup f
      = (below N (B * n)).sup f ⊔ (Finset.univ : Finset (Fin B)).sup (block B n hn f) := by
  apply le_antisymm
  · apply Finset.sup_le
    intro i hi
    have hi' : i.val < B * (n + 1) := (Finset.mem_filter.1 hi).2
    by_cases hlt : i.val < B * n
    · exact le_trans (Finset.le_sup (f := f) (Finset.mem_filter.2 ⟨Finset.mem_univ _, hlt⟩)) le_sup_left
    · have hr : i.val - B * n < B := by rw [Nat.mul_succ] at hi'; omega
      have key : f i = block B n hn f ⟨i.val - B * n, hr⟩ :=
        congrArg f (Fin.ext (by show i.val = B * n + (i.val - B * n); omega))
      rw [key]
      exact le_trans (Finset.le_sup (f := block B n hn f) (Finset.mem_univ _)) le_sup_right
  · apply sup_le
    · apply Finset.sup_mono
      intro i hi
      have hi' : i.val < B * n := (Finset.mem_filter.1 hi).2
      exact Finset.mem_filter.2 ⟨Finset.mem_univ _, by rw [Nat.mul_succ]; omega⟩
    · apply Finset.sup_le
      intro r _
      exact Finset.le_sup (f := f) (Finset.mem_filter.2 ⟨Finset.mem_univ _, by
        have := r.isLt; show B * n + r.val < B * (n + 1); rw [Nat.mul_succ]; omega⟩)

/-- Over a linear order with a bottom element, folding `max` from the bottom element is the supremum. -/
theorem fold_max_bot {β : Type*} [LinearOrder β] [OrderBot β] {ι : Type*} (s : Finset ι) (f : ι → β) :
    s.fold max ⊥ f = s.sup f := rfl

end Cert.MaxFold
-- ==== Proof.AbsMaxOrder.lean ====
/-
  Order facts about the largest absolute value of a matrix of extended reals. The absolute value of v is the larger of v
  and −v, which is never negative. The supremum of all the absolute values can be taken row by row: first each row's
  supremum over its lanes, then the supremum of those. A running maximum that starts from zero and takes in one more
  group of rows is zero joined with the supremum over all the rows taken so far; and since an absolute value is never
  negative, zero joined with the supremum over a matrix that has an entry is that supremum.
-/
import proofs.«119283_j33371895889922_2_alg».proof.Proof.FakeQuant
import proofs.«119283_j33371895889922_2_alg».proof.Proof.LibMaxFold
import Idealize.ShloMosaic.Lib.ValueIdx
import Mathlib.Data.EReal.Operations

noncomputable section

open Idealize.ShloMosaic Idealize.ShloMosaic.ValueIdx

namespace Cert.KernelIdeal.AbsMax

/-- The largest absolute value along row `r` of a matrix. -/
def rowSup {n0 n1 : ℕ} (x : (⟨2, ![n0, n1]⟩ : Shape).Idx → EReal) (r : Fin n0) : EReal :=
  (Finset.univ : Finset (Fin n1)).sup fun l => max (x (ix2 r l)) (-(x (ix2 r l)))

/-- An absolute value is never negative. -/
theorem abs_nonneg' (v : EReal) : 0 ≤ max v (-v) := by
  rcases le_total 0 v with h | h
  · exact le_max_of_le_left h
  · exact le_max_of_le_right (EReal.neg_nonneg.2 h)

/-- The supremum of the rows' largest absolute values is the largest absolute value of the whole matrix. -/
theorem sup_rowSup_eq_absmax {n0 n1 : ℕ} (x : (⟨2, ![n0, n1]⟩ : Shape).Idx → EReal) :
    (Finset.univ : Finset (Fin n0)).sup (rowSup x) = Cert.FakeQuant.absmax x := by
  unfold Cert.FakeQuant.absmax
  apply le_antisymm
  · refine Finset.sup_le fun r _ => Finset.sup_le fun l _ => ?_
    exact Finset.le_sup (f := fun i => max (x i) (-(x i))) (Finset.mem_univ (ix2 r l))
  · refine Finset.sup_le fun i _ => ?_
    refine le_of_eq_of_le (congrArg (fun j => max (x j) (-(x j))) (eq_ix2 i)) ?_
    exact le_trans
      (Finset.le_sup (f := fun l => max (x (ix2 (i 0) l)) (-(x (ix2 (i 0) l)))) (Finset.mem_univ (i 1)))
      (Finset.le_sup (f := rowSup x) (Finset.mem_univ (i 0)))

/-- A matrix with at least one entry has a supremum of absolute values that is not negative. -/
theorem zero_le_sup_rowSup {n0 n1 : ℕ} (h0 : 0 < n0) (h1 : 0 < n1) (x : (⟨2, ![n0, n1]⟩ : Shape).Idx → EReal) :
    0 ≤ (Finset.univ : Finset (Fin n0)).sup (rowSup x) :=
  le_trans (abs_nonneg' (x (ix2 ⟨0, h0⟩ ⟨0, h1⟩)))
    (le_trans
      (Finset.le_sup (f := fun l => max (x (ix2 ⟨0, h0⟩ l)) (-(x (ix2 ⟨0, h0⟩ l)))) (Finset.mem_univ (⟨0, h1⟩ : Fin n1)))
      (Finset.le_sup (f := rowSup x) (Finset.mem_univ (⟨0, h0⟩ : Fin n0))))

/-- Taking one more group's maximum into a running maximum that started from zero. -/
theorem max_zero_step (S B : EReal) : max (max 0 S) B = max 0 (S ⊔ B) := by
  rw [max_assoc]

end Cert.KernelIdeal.AbsMax

end
-- ==== Proof.AbsMaxRun.lean ====
/-
  The running maximum over the grid, and what the result array ends holding. After point n the output block holds zero
  joined with the largest absolute value among the rows below 8192·(n+1): the first point starts from the zero block,
  every later point takes its block's maximum into what the point before left. The output block is written back once,
  after the last point, and it is the whole of the one-entry result array; by then every row has been taken in, so the
  array holds zero joined with the largest absolute value of the input, which is that largest absolute value itself.
-/
import proofs.«119283_j33371895889922_2_alg».proof.Proof.AbsMaxCases
import proofs.«119283_j33371895889922_2_alg».proof.Proof.AbsMaxPayload
import proofs.«119283_j33371895889922_2_alg».proof.Proof.AbsMaxBlock
import proofs.«119283_j33371895889922_2_alg».proof.Proof.AbsMaxOrder

noncomputable section

open Idealize.ShloMosaic Idealize.ShloMosaic.TcCoe Idealize.SL.Sem Idealize.ShloMosaic.ValueIdx
open Idealize.ShloMosaic.Pipeline (Dat)

namespace Cert.KernelIdeal.AbsMax

open Cert.KernelIdeal Cert.KernelIdeal.Gen

variable (V : (c : Dev nD) → (b : Ref sig .tc) → Buf (Elt Ideal) ((c : Thread nD τ).loc b))

/-- The input array as the region finds it, as a matrix of extended reals. -/
abbrev arr (c : Dev nD) : S262144x256.Idx → EReal := V c main_arg0

/-- The largest absolute value in the block at point n is the supremum of the rows' largest absolute values over the
    n-th group of 8192 rows of the array. -/
theorem blockAbsMax_iblk (c : Dev nD) (n : ℕ) (hn : n < cfg0.N) (hB : 8192 * (n + 1) ≤ 262144) :
    blockAbsMax (iblk0 V c 0 ⟨n, hn⟩)
      = (Finset.univ : Finset (Fin 8192)).sup (Cert.MaxFold.block 8192 n hB (rowSup (arr V c))) := by
  unfold blockAbsMax
  refine Finset.sup_congr rfl fun r _ => ?_
  show _ = rowSup (arr V c) ⟨8192 * n + r.val, _⟩
  unfold rowSup
  refine Finset.sup_congr rfl fun l _ => ?_
  exact congrArg av (iblk_apply V c ⟨n, hn⟩ r l)

/-- After point n the output block holds zero joined with the largest absolute value among the rows below
    8192·(n+1) — by induction on the point. -/
theorem outsAt_eq (c : Dev nD) : ∀ (n : ℕ) (hn : n < cfg0.N) (y : S1x1.Idx),
    (outsAt0 V c n hn : S1x1.Idx → EReal) y
      = max 0 ((Cert.MaxFold.below 262144 (8192 * (n + 1))).sup (rowSup (arr V c)))
  | 0, hn, y => by
    have e : outsAt0 V c 0 hn = k0_pay2 (iblk0 V c 0 ⟨0, hn⟩) (k0_pay1 (F := Ideal)) :=
      (outsAt0_A V c ⟨0, hn⟩ rfl).trans (out_A ..)
    refine (congrFun e y).trans ?_
    rw [pay2_apply, pay1_apply, blockAbsMax_iblk V c 0 hn (by omega),
      Cert.MaxFold.sup_below_succ 8192 0 (by omega), Cert.MaxFold.sup_below_zero, bot_sup_eq]
  | n + 1, hn, y => by
    have hN : n + 1 < 32 := lt_of_lt_of_eq hn (show cfg0.N = 32 from N_0)
    have hB : ¬(⟨n + 1, hn⟩ : Fin cfg0.N).val % 32 = 0 := by dsimp only; omega
    have e : outsAt0 V c (n + 1) hn
        = k0_pay2 (iblk0 V c 0 ⟨n + 1, hn⟩) (outsAt0 V c n (Nat.lt_of_succ_lt hn)) :=
      (outsAt0_B V c ⟨n + 1, hn⟩ hB).trans (out_B ..)
    refine (congrFun e y).trans ?_
    rw [pay2_apply, outsAt_eq c n (Nat.lt_of_succ_lt hn) y, blockAbsMax_iblk V c (n + 1) hn (by omega),
      Cert.MaxFold.sup_below_succ 8192 (n + 1) (by omega), max_zero_step]

/-- The last of the 32 points. -/
theorem last_lt : 31 < cfg0.N := by rw [show cfg0.N = 32 from N_0]; decide

/-- What the output block holds after the last point, as contents of the one-entry result array. -/
abbrev result (c : Dev nD) : Buf (Elt Ideal) ((c : Thread nD τ).loc main_v0) := outsAt0 V c 31 last_lt

/-- The one write-back, after the last point, writes it: the output block is the whole result array. -/
theorem flushed_eq (c : Dev nD) (t : Fin cfg0.N) (hf : (cfg0.win 1).flush t = true) :
    (dat0 V c).flushed 1 t = ((cfg0.win 1).blk t).view.read (Elt Ideal) (result V c) := by
  have hN : t.val < 32 := lt32 t
  have h31 : t.val = 31 := by have := (flush0_1 t).mp hf; omega
  obtain rfl : t = ⟨31, last_lt⟩ := Fin.ext h31
  show (cfg0.win 1).cut (grid0.coords ⟨31, last_lt⟩) ((dat0 V c).after 1 ⟨31, last_lt⟩) = _
  rw [after0_1]
  have hz' : (fun a => win0_1.index ⟨31, last_lt⟩ a * main_v0.ty.shape.size a) = fun _ => 0 :=
    funext fun a => by fin_cases a <;> decide +kernel
  exact (Memref.read_access_unit_zero (Elt Ideal) main_v0 hz' (fun a => by rw [congrFun hz' a]; simp) (result V c)).symm

/-- So the result array ends holding what the output block held after the last point. -/
theorem final_o (c : Dev nD) : (dat0 V c).arrAt 1 cfg0.N = result V c :=
  (dat0 V c).arrAt_eq_of_cover 1 (result V c) (flushed_eq V c) fun i =>
    ⟨⟨31, last_lt⟩, (flush0_1 ⟨31, last_lt⟩).mpr rfl, by
      show i ∈ ((View.whole main_v0).slice (win0_1.rect ⟨31, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index ⟨31, last_lt⟩ 0 * win0_1.size 0 ≤ (i 0 : Nat)
          ∧ (i 0 : Nat) < win0_1.index ⟨31, last_lt⟩ 0 * win0_1.size 0 + win0_1.xsize (grid0.coords ⟨31, last_lt⟩) 0
        rw [show win0_1.index ⟨31, last_lt⟩ 0 * win0_1.size 0 = 0 from by decide +kernel,
          show win0_1.xsize (grid0.coords ⟨31, last_lt⟩) 0 = 1 from by decide +kernel]
        omega
      | ⟨1, _⟩ =>
        show win0_1.index ⟨31, last_lt⟩ 1 * win0_1.size 1 ≤ (i 1 : Nat)
          ∧ (i 1 : Nat) < win0_1.index ⟨31, last_lt⟩ 1 * win0_1.size 1 + win0_1.xsize (grid0.coords ⟨31, last_lt⟩) 1
        rw [show win0_1.index ⟨31, last_lt⟩ 1 * win0_1.size 1 = 0 from by decide +kernel,
          show win0_1.xsize (grid0.coords ⟨31, last_lt⟩) 1 = 1 from by decide +kernel]
        omega⟩

/-- THE REGION'S VALUE: when the region is done, the one entry of its result array is the largest absolute value of
    the input array as the region found it. -/
theorem region_value (V : (c : Dev nD) → (b : Ref sig .tc) → Buf (Elt Ideal) ((c : Thread nD τ).loc b)) (c : Dev nD)
    (y : S1x1.Idx) :
    ((dat0 (F := Ideal) V c).arrAt 1 cfg0.N : S1x1.Idx → EReal) y
      = Cert.FakeQuant.absmax (V c main_arg0 : S262144x256.Idx → EReal) := by
  refine (congrFun (final_o V c) y).trans ?_
  show (outsAt0 V c 31 last_lt : S1x1.Idx → EReal) y = _
  rw [outsAt_eq V c 31 last_lt y, Cert.MaxFold.sup_below_all (by omega),
    max_eq_right (zero_le_sup_rowSup (by omega) (by omega) (arr V c)), sup_rowSup_eq_absmax]

end Cert.KernelIdeal.AbsMax

end
-- ==== Proof.KernelValue.lean ====
import proofs.«119283_j33371895889922_2_alg».proof.Proof.KernelRun
import proofs.«119283_j33371895889922_2_alg».proof.Proof.HostScales
import proofs.«119283_j33371895889922_2_alg».proof.Proof.QuantRegion
import proofs.«119283_j33371895889922_2_alg».proof.Proof.AbsMaxRun

/-!
  The idealized kernel's result, as the specification of the argument arrays.

  The first launch leaves the largest absolute value of the activations in its 1 × 1 result; the host turns it, and
  the weights' largest absolute value, into the two steps; the second launch, finding the arguments as launched and
  the steps in their 1 × 1 arrays, leaves the layer over them in its output array; and the program's run ends with the
  result buffer at that array. Chained, the result is `Cert.FakeQuant.out` of the three arguments.
-/

set_option maxRecDepth 16384

noncomputable section

namespace Cert.KernelIdeal.Value

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The layer over what the second launch finds is the specification of the launch memory's arguments. -/
theorem whole_eq_out (c : Dev nD) :
    Quant.whole (V2 m ρ) c
      = Cert.FakeQuant.out (m ((c : Thread nD τ).loc main_arg0)) (m ((c : Thread nD τ).loc main_arg1))
          (m ((c : Thread nD τ).loc main_arg2)) := by
  have ha : (W1 m ρ c (Proc.devRef .tc main_v0) : S1x1.Idx → EReal) (ix2 (0 : Fin 1) (0 : Fin 1))
      = Cert.FakeQuant.absmax (m ((c : Thread nD τ).loc main_arg0) : S262144x256.Idx → EReal) :=
    (congrFun (W1_arr m ρ c 1) (ix2 (0 : Fin 1) (0 : Fin 1))).trans
      (AbsMax.region_value (V0 m ρ) c (ix2 (0 : Fin 1) (0 : Fin 1)))
  funext i
  unfold Quant.whole
  rw [Host.entry_sx m ρ c, Host.entry_sw m ρ c, Host.entry_x m ρ c, Host.entry_w m ρ c, Host.entry_b m ρ c, ha]
  rfl

/-- Every weakly fair execution of the idealized kernel terminates without a fault, its result buffer holding the
    specification of the argument arrays and the arguments unchanged. -/
theorem run : θ_run defs (onTc (τ := τ) (main (F := Ideal))) ⟨m, fun _ => 0, ρ⟩ (fun r => ∀ c : Dev nD,
      r.2.mem ((c.tc : Thread nD τ).loc main_v10)
        = Cert.FakeQuant.out (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h c).1.trans ((Run.result_arr m ρ c).trans ((Quant.final (V2 m ρ) c).trans (whole_eq_out m ρ c))), (h c).2⟩)
    (Run.run_named m ρ)

end Cert.KernelIdeal.Value

end
-- ==== Proof.RefIsOut.lean ====
/-
  The reference program's result, read index by index, is the quantised layer.

  The reference computes, for activations `x` (262144 × 256), weights `W` (256 × 256) and a bias `b` (256):
  the largest absolute value of `x` and of `W` (a maximum over both axes of the array of absolute values, started
  at −∞), the two steps `max(a, 1e-8) / 127`, the three quantised arrays `min(hi, max(lo, round(v / s))) · s`, the
  product of the quantised activations with the quantised weights contracted along the second axis of each, the
  quantised bias added to every row, and the whole scaled by 200.

  Read at row `r`, column `q`:
    • a maximum over all axes from −∞ (the bottom of the extended reals) is the supremum over all indices, so the
      two reduced scalars are `absmax x` and `absmax W`, and the scalars derived from them are `step (absmax ·)`;
    • a scalar broadcast reads the scalar's one element at every index, so each quantised array at an index is
      `fq lo hi s (v index)`;
    • the contraction at `(r, q)` is `Σ_k x̂(r, k) · Ŵ(q, k)`;
    • the bias, broadcast first to one row and then along the rows, is read at `q`.
  That is `Cert.FakeQuant.out x W b` at `(r, q)`.
-/
import proofs.«119283_j33371895889922_2_alg».proof.Proof.Gen.ReferenceIdeal.Read
import proofs.«119283_j33371895889922_2_alg».proof.Proof.FakeQuant
import proofs.«119283_j33371895889922_2_alg».proof.Proof.LibReduceAll
import proofs.«119283_j33371895889922_2_alg».proof.Proof.LibCols

noncomputable section

namespace Cert.ReferenceIdeal.RefValue

open Cert.ReferenceIdeal Cert.ReferenceIdeal.Gen Cert.ReferenceIdeal.Read Cert.FakeQuant
open Idealize.ShloMosaic Idealize.ShloMosaic.ValueIdx Idealize.ShloMosaic.StableHlo

/-! ## The two largest absolute values and the steps -/

/-- The maximum over both axes of `|x|`, from −∞, is the largest absolute value of `x`. -/
theorem absmax_x (x : FVec Ideal S262144x256 .f32) (j : S_.Idx) :
    val_main_v11 (F := Ideal) x j = absmax x :=
  LibReduceAll.reduce_scalar_maximumf (val_main_v10 (F := Ideal) x) (val_main_cst_4 (F := Ideal))
    reducesTo_S262144x256_S_d0_1 h_S_ j Cert.LibCols.ninf_eq_bot

/-- The maximum over both axes of `|W|`, from −∞, is the largest absolute value of `W`. -/
theorem absmax_W (W : FVec Ideal S256x256 .f32) (j : S_.Idx) :
    val_main_v1 (F := Ideal) W j = absmax W :=
  LibReduceAll.reduce_scalar_maximumf (val_main_v0 (F := Ideal) W) (val_main_cst (F := Ideal))
    reducesTo_S256x256_S_d0_1 h_S_ j Cert.LibCols.ninf_eq_bot

/-- The activations' step. -/
theorem step_x (x : FVec Ideal S262144x256 .f32) (j : S_.Idx) :
    val_main_v13 (F := Ideal) x j = step (absmax x) := by
  rw [val_main_v13_apply, val_main_v12_apply, absmax_x]
  rfl

/-- The weights' step. -/
theorem step_W (W : FVec Ideal S256x256 .f32) (j : S_.Idx) :
    val_main_v3 (F := Ideal) W j = step (absmax W) := by
  rw [val_main_v3_apply, val_main_v2_apply, absmax_W]
  rfl

/-- The accumulator's step: the product of the two. -/
theorem step_acc (x : FVec Ideal S262144x256 .f32) (W : FVec Ideal S256x256 .f32) (j : S_.Idx) :
    val_main_v20 (F := Ideal) x W j = step (absmax x) * step (absmax W) := by
  rw [val_main_v20_apply, step_x, step_W]
  rfl

/-! ## The three quantised arrays, at an index -/

/-- The quantised activations at an index. -/
theorem quant_x (x : FVec Ideal S262144x256 .f32) (i : S262144x256.Idx) :
    val_main_v19 (F := Ideal) x i = fq 0xC3000000#32 0x42FE0000#32 (step (absmax x)) (x i) := by
  simp only [val_main_v19_apply, val_main_v17_apply, val_main_call3_v4_apply, val_main_call3_v3_apply,
    val_main_cst_8_apply, val_main_call3_v2_apply, val_main_call3_v1_apply, val_main_call3_v0_apply,
    val_main_cst_7_apply, val_main_v16_apply, val_main_v15_apply, val_main_v14_apply, val_main_v18_apply, step_x]
  rfl

/-- The quantised weights at an index. -/
theorem quant_W (W : FVec Ideal S256x256 .f32) (i : S256x256.Idx) :
    val_main_v9 (F := Ideal) W i = fq 0xC2FE0000#32 0x42FE0000#32 (step (absmax W)) (W i) := by
  simp only [val_main_v9_apply, val_main_v7_apply, val_main_call1_v4_apply, val_main_call1_v3_apply,
    val_main_cst_3_apply, val_main_call1_v2_apply, val_main_call1_v1_apply, val_main_call1_v0_apply,
    val_main_cst_2_apply, val_main_v6_apply, val_main_v5_apply, val_main_v4_apply, val_main_v8_apply, step_W]
  rfl

/-- The quantised bias at an index. -/
theorem quant_b (x : FVec Ideal S262144x256 .f32) (W : FVec Ideal S256x256 .f32) (b : FVec Ideal S256 .f32)
    (i : S256.Idx) :
    val_main_v26 (F := Ideal) x W b i
      = fq 0xC3000000#32 0x42FE0000#32 (step (absmax x) * step (absmax W)) (b i) := by
  simp only [val_main_v26_apply, val_main_v24_apply, val_main_call5_v4_apply, val_main_call5_v3_apply,
    val_main_cst_10_apply, val_main_call5_v2_apply, val_main_call5_v1_apply, val_main_call5_v0_apply,
    val_main_cst_9_apply, val_main_v23_apply, val_main_v22_apply, val_main_v21_apply, val_main_v25_apply, step_acc]
  rfl

/-! ## The indices the contraction and the bias's two broadcasts read -/

/-- The contraction at `i` reads the left operand's row `i 0` at `k`. -/
theorem lidx_eq (i : S262144x256.Idx) (k : Fin 256) : lidx_main_v27 i k = ix2 (n0 := 262144) (n1 := 256) (i 0) k := by
  funext a
  match a with
  | ⟨0, _⟩ => rfl
  | ⟨1, _⟩ => rfl

/-- The contraction at `i` reads the right operand's row `i 1` at `k`: both contract their second axis. -/
theorem ridx_eq (i : S262144x256.Idx) (k : Fin 256) : ridx_main_v27 i k = ix2 (n0 := 256) (n1 := 256) (i 1) k := by
  funext a
  match a with
  | ⟨0, _⟩ => rfl
  | ⟨1, _⟩ => rfl

/-- The bias broadcast to one row and then along the rows is read at the column. -/
theorem bidx_eq (i : S262144x256.Idx) : idx_main_v28 (idx_main_v29 i) = ix1 (n := 256) (i 1) := by
  funext a
  match a with
  | ⟨0, _⟩ => rfl

/-! ## The result -/

/-- The reference's last stage, read at an index, is the quantised layer there. -/
theorem value_eq (x : FVec Ideal S262144x256 .f32) (W : FVec Ideal S256x256 .f32) (b : FVec Ideal S256 .f32) :
    val_main_v32 (F := Ideal) x W b = Cert.FakeQuant.out x W b := by
  funext i
  rw [val_main_v32_apply, val_main_v31_apply, val_main_cst_11_apply, val_main_v30_apply, val_main_v27_apply,
    val_main_v29_apply, val_main_v28_apply, quant_b, bidx_eq]
  have hsum : (∑ k : Fin 256, val_main_v19 (F := Ideal) x (lidx_main_v27 i k) * val_main_v9 (F := Ideal) W (ridx_main_v27 i k))
      = ∑ k : Fin 256, fq 0xC3000000#32 0x42FE0000#32 (step (absmax x)) (x (ix2 (n0 := 262144) (n1 := 256) (i 0) k))
          * fq 0xC2FE0000#32 0x42FE0000#32 (step (absmax W)) (W (ix2 (n0 := 256) (n1 := 256) (i 1) k)) :=
    Finset.sum_congr rfl fun k _ => by rw [quant_x, quant_W, lidx_eq, ridx_eq]
  rw [hsum]
  rfl

set_option maxRecDepth 8192 in
/-- The reference run's result term is the quantised layer of its three arguments. -/
theorem result_eq (x : FVec Ideal S262144x256 .f32) (W : FVec Ideal S256x256 .f32) (b : FVec Ideal S256 .f32) :
    mulf (broadcastInDim S262144x256 ![] bcast_S_S262144x256 (constant S_ .f32 0x43480000#32)) (addf (Host.dotGeneral dot_S262144x256_S256x256_S262144x256_1_1_0_0_n_n none (mulf (minimumf (broadcastInDim S262144x256 ![] bcast_S_S262144x256 (id (constant S_ .f32 0x42FE0000#32))) (maximumf (broadcastInDim S262144x256 ![] bcast_S_S262144x256 (id (constant S_ .f32 0xC3000000#32))) (Host.roundeven (Host.divf x (broadcastInDim S262144x256 ![] bcast_S_S262144x256 (Host.divf (maximumf (Host.reduce FloatOps.maximumf (Host.absf x) (constant S_ .f32 0xFF800000#32) reducesTo_S262144x256_S_d0_1 h_S_) (constant S_ .f32 0x322BCC77#32)) (constant S_ .f32 0x42FE0000#32))))))) (broadcastInDim S262144x256 ![] bcast_S_S262144x256 (Host.divf (maximumf (Host.reduce FloatOps.maximumf (Host.absf x) (constant S_ .f32 0xFF800000#32) reducesTo_S262144x256_S_d0_1 h_S_) (constant S_ .f32 0x322BCC77#32)) (constant S_ .f32 0x42FE0000#32)))) (mulf (minimumf (broadcastInDim S256x256 ![] bcast_S_S256x256 (id (constant S_ .f32 0x42FE0000#32))) (maximumf (broadcastInDim S256x256 ![] bcast_S_S256x256 (id (constant S_ .f32 0xC2FE0000#32))) (Host.roundeven (Host.divf W (broadcastInDim S256x256 ![] bcast_S_S256x256 (Host.divf (maximumf (Host.reduce FloatOps.maximumf (Host.absf W) (constant S_ .f32 0xFF800000#32) reducesTo_S256x256_S_d0_1 h_S_) (constant S_ .f32 0x322BCC77#32)) (constant S_ .f32 0x42FE0000#32))))))) (broadcastInDim S256x256 ![] bcast_S_S256x256 (Host.divf (maximumf (Host.reduce FloatOps.maximumf (Host.absf W) (constant S_ .f32 0xFF800000#32) reducesTo_S256x256_S_d0_1 h_S_) (constant S_ .f32 0x322BCC77#32)) (constant S_ .f32 0x42FE0000#32))))) (broadcastInDim S262144x256 ![0, 1] bcast_S1x256_S262144x256_0_1 (broadcastInDim S1x256 ![1] bcast_S256_S1x256_1 (mulf (minimumf (broadcastInDim S256 ![] bcast_S_S256 (id (constant S_ .f32 0x42FE0000#32))) (maximumf (broadcastInDim S256 ![] bcast_S_S256 (id (constant S_ .f32 0xC3000000#32))) (Host.roundeven (Host.divf b (broadcastInDim S256 ![] bcast_S_S256 (mulf (Host.divf (maximumf (Host.reduce FloatOps.maximumf (Host.absf x) (constant S_ .f32 0xFF800000#32) reducesTo_S262144x256_S_d0_1 h_S_) (constant S_ .f32 0x322BCC77#32)) (constant S_ .f32 0x42FE0000#32)) (Host.divf (maximumf (Host.reduce FloatOps.maximumf (Host.absf W) (constant S_ .f32 0xFF800000#32) reducesTo_S256x256_S_d0_1 h_S_) (constant S_ .f32 0x322BCC77#32)) (constant S_ .f32 0x42FE0000#32)))))))) (broadcastInDim S256 ![] bcast_S_S256 (mulf (Host.divf (maximumf (Host.reduce FloatOps.maximumf (Host.absf x) (constant S_ .f32 0xFF800000#32) reducesTo_S262144x256_S_d0_1 h_S_) (constant S_ .f32 0x322BCC77#32)) (constant S_ .f32 0x42FE0000#32)) (Host.divf (maximumf (Host.reduce FloatOps.maximumf (Host.absf W) (constant S_ .f32 0xFF800000#32) reducesTo_S256x256_S_d0_1 h_S_) (constant S_ .f32 0x322BCC77#32)) (constant S_ .f32 0x42FE0000#32))))))))
      = Cert.FakeQuant.out x W b :=
  (val_main_v32_eq (F := Ideal) x W b).trans (value_eq x W b)

end Cert.ReferenceIdeal.RefValue

end
-- ==== Proof.lean ====
/-
  A linear layer on fake-quantised operands: `200 · (x̂ · Ŵᵀ + b̂)` for activations `x` (262144 × 256), weights `W`
  (256 × 256) and biases `b` (256), each quantised per tensor and symmetrically to eight-bit levels — an entry `v`
  becomes `clip(round(v / s), lo, hi) · s` with the step `s = max(a, 1e-8) / 127` of its tensor's largest absolute
  value `a`, the bias at the product of the other two steps (`Cert.FakeQuant`, Proof/FakeQuant.lean).

  The kernel computes it in two launches. The first walks the activations in 32 row blocks and keeps, in a 1 × 1 block
  that stays in place and is written back once at the end, the running maximum of each block's largest absolute value,
  started at zero. Absolute values are not negative and there is at least one entry, so the running maximum from zero
  is the supremum of all of them, which is what the reference's single maximum over both axes from −∞ is
  (Proof/AbsMax*.lean). The host then forms the two steps, the weights' largest absolute value by the same maximum
  over both axes the reference takes (Proof/HostScales.lean). The second launch walks the activations in 64 row
  blocks; at each it quantises its block, the weights and the biases, multiplies on the matrix unit into a zero
  accumulator contracting the second axis of both operands, adds the bias row and scales. A product into zero is the
  plain sum over the contracted index, the same sum the reference's contraction over whole matrices takes at that row
  and column, and the change of float format before the product is the identity on extended reals; so each block
  holds the layer's rows, and the blocks cover the array (Proof/QuantBody.lean, Proof/QuantRegion.lean). The run of the
  two launches and the host operations between them, with the result buffer named, is Proof/KernelRun.lean, and
  Proof/KernelValue.lean chains the four into: the kernel's result is `Cert.FakeQuant.out` of its arguments.

  The reference is a straight line of host operations; its result term, read one operation at a time, is the same
  function (Proof/RefIsOut.lean). Nothing here needs an entry to be finite: both sides apply the same operations to
  the same extended reals, and the only rearrangements are of a maximum and of a finite sum.

  The idealization rewrote nothing, so `preserves` asks nothing.
-/
import proofs.«119283_j33371895889922_2_alg».proof.Defs
import proofs.«119283_j33371895889922_2_alg».proof.Proof.Gen.Kernel
import proofs.«119283_j33371895889922_2_alg».proof.Proof.Gen.Kernel.Skeleton
import proofs.«119283_j33371895889922_2_alg».proof.Proof.Gen.Kernel.Launch
import proofs.«119283_j33371895889922_2_alg».proof.Proof.Gen.Kernel.Points
import proofs.«119283_j33371895889922_2_alg».proof.Proof.Gen.Kernel.Frame
import proofs.«119283_j33371895889922_2_alg».proof.Proof.Gen.KernelIdeal
import proofs.«119283_j33371895889922_2_alg».proof.Proof.Gen.KernelIdeal.Skeleton
import proofs.«119283_j33371895889922_2_alg».proof.Proof.Gen.KernelIdeal.Launch
import proofs.«119283_j33371895889922_2_alg».proof.Proof.Gen.KernelIdeal.Points
import proofs.«119283_j33371895889922_2_alg».proof.Proof.Gen.KernelIdeal.Frame
import proofs.«119283_j33371895889922_2_alg».proof.Proof.Gen.ReferenceIdeal
import proofs.«119283_j33371895889922_2_alg».proof.Proof.Gen.ReferenceIdeal.Run
import proofs.«119283_j33371895889922_2_alg».proof.Proof.Gen.ReferenceIdeal.Read
import proofs.«119283_j33371895889922_2_alg».proof.Proof.Gen.Pre_finite_inputs
import proofs.«119283_j33371895889922_2_alg».proof.Proof.KernelValue
import proofs.«119283_j33371895889922_2_alg».proof.Proof.RefIsOut
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the idealized kernel ends with its result at the specification of its
    arguments, and the reference with its result at the same function of arguments that are the same arrays. -/
theorem algebraic : Cert.algebraic_KernelIdeal_ReferenceIdeal := by
  intro m ρ m' ρ' _ hagree
  refine ⟨fun c => Cert.FakeQuant.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
